-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x4096 : Shape := ⟨2, ![256, 4096]⟩
abbrev S11008x4096 : Shape := ⟨2, ![11008, 4096]⟩
abbrev S11008 : Shape := ⟨1, ![11008]⟩
abbrev S_ : Shape := ⟨0, ![]⟩

class Facts : Prop where
  bcast_S_S256x4096 : S_.BroadcastsInDim S256x4096 (![] : Fin 0 → Fin S256x4096.rank)
  reducesTo_S256x4096_S_d0_1 : S256x4096.ReducesTo [0, 1] S_
  h_S_ : 0 < S_.numel
  bcast_S_S11008 : S_.BroadcastsInDim S11008 (![] : Fin 0 → Fin S11008.rank)
  reducesTo_S11008_S_d0 : S11008.ReducesTo [0] S_

variable [Facts]

def fn {F : FTy → Type} [FloatOps F] (main_arg0 : FVec F S256x4096 .f32) (main_arg1 : IVec S11008x4096 32) (main_arg2 : FVec F S11008 .f32) (main_arg3 : FVec F S11008 .f32) : IVec S_ 1 :=
  let main_v0 : FVec F S256x4096 .f32 := Host.absf main_arg0
  let main_cst : FVec F S_ .f32 := constant S_ .f32 0x7F800000#32
  let main_v1 : FVec F S256x4096 .f32 := broadcastInDim S256x4096 ![] bcast_S_S256x4096 main_cst
  let main_v2 : IVec S256x4096 1 := cmpf .olt main_v0 main_v1
  let main_c : IVec S_ 1 := constantI S_ 1 1#1
  let main_v3 : IVec S_ 1 := (fun x v => Host.reduce IntOp.andi x v reducesTo_S256x4096_S_d0_1 h_S_) main_v2 main_c
  let main_v4 : FVec F S11008 .f32 := Host.absf main_arg2
  let main_cst_0 : FVec F S_ .f32 := constant S_ .f32 0x7F800000#32
  let main_v5 : FVec F S11008 .f32 := broadcastInDim S11008 ![] bcast_S_S11008 main_cst_0
  let main_v6 : IVec S11008 1 := cmpf .olt main_v4 main_v5
  let main_c_1 : IVec S_ 1 := constantI S_ 1 1#1
  let main_v7 : IVec S_ 1 := (fun x v => Host.reduce IntOp.andi x v reducesTo_S11008_S_d0 h_S_) main_v6 main_c_1
  let main_v8 : IVec S_ 1 := andi main_v3 main_v7
  let main_v9 : FVec F S11008 .f32 := Host.absf main_arg3
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  main_v13
-- ==== Kernel.lean ====
abbrev S256x4096 : Shape := ⟨2, ![256, 4096]⟩
abbrev S11008x4096 : Shape := ⟨2, ![11008, 4096]⟩
abbrev S11008 : Shape := ⟨1, ![11008]⟩
abbrev S1x11008 : Shape := ⟨2, ![1, 11008]⟩
abbrev S256x11008 : Shape := ⟨2, ![256, 11008]⟩
abbrev S512x4096 : Shape := ⟨2, ![512, 4096]⟩
abbrev S1x512 : Shape := ⟨2, ![1, 512]⟩
abbrev S256x512 : Shape := ⟨2, ![256, 512]⟩

abbrev nBuf : Space → Nat
  | .hbm => 11
  | .vmem => 10
  | .smem => 0
  | _ => 0

abbrev bufTy : (tb : Table) → Fin (tcTables nBuf tb) → BufTy
  | .hbm, ⟨0, _⟩ => ⟨S256x4096, .f32⟩
  | .hbm, ⟨1, _⟩ => ⟨S11008x4096, .i32⟩
  | .hbm, ⟨2, _⟩ => ⟨S11008, .f32⟩
  | .hbm, ⟨3, _⟩ => ⟨S11008, .f32⟩
  | .hbm, ⟨4, _⟩ => ⟨S256x4096, .bf16⟩
  | .hbm, ⟨5, _⟩ => ⟨S256x4096, .f32⟩
  | .hbm, ⟨6, _⟩ => ⟨S256x4096, .f32⟩
  | .hbm, ⟨7, _⟩ => ⟨S256x4096, .bf16⟩
  | .hbm, ⟨8, _⟩ => ⟨S1x11008, .f32⟩
  | .hbm, ⟨9, _⟩ => ⟨S1x11008, .f32⟩
  | .hbm, ⟨10, _⟩ => ⟨S256x11008, .f32⟩
  | .local _ .vmem, ⟨0, _⟩ => ⟨S256x4096, .bf16⟩
  | .local _ .vmem, ⟨1, _⟩ => ⟨S256x4096, .bf16⟩
  | .local _ .vmem, ⟨2, _⟩ => ⟨S512x4096, .i32⟩
  | .local _ .vmem, ⟨3, _⟩ => ⟨S512x4096, .i32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S256x512, .f32⟩
  | .local _ .vmem, ⟨9, _⟩ => ⟨S256x512, .f32⟩
  | _, _ => ⟨S256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bitsLt_bf16_f32 : FTy.bits .bf16 < FTy.bits .f32
  shapeCasts_S11008_S1x11008 : S11008.ShapeCasts S1x11008
  inb_S512x4096_S512x4096_0_0 : ∀ a, (![0, 0] : Fin 2 → Nat) a + S512x4096.size a ≤ S512x4096.size a
  h_S512x4096 : 0 < S512x4096.numel
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S256x512 : S1x512.Broadcasts S256x512
  inb_S256x512_S256x512_0_0 : ∀ a, (![0, 0] : Fin 2 → Nat) a + S256x512.size a ≤ S256x512.size a
  h_S256x512 : 0 < S256x512.numel
  dot_S256x4096_S512x4096_S256x512_1_1_0_0_n_n_wf : DotDims.WF S256x4096 S512x4096 S256x512 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S256x4096.size a
  hwx0_0 : ∀ i : grid0.Coords, EltTy.bits .bf16 = 32 ∨ (Rect.block (s := S256x4096) S256x4096.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S256x4096.size a
  hwx0_1 : ∀ i : grid0.Coords, EltTy.bits .bf16 = 32 ∨ (Rect.block (s := S256x4096) S256x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S512x4096.size a < S11008x4096.size a
  hwx0_2 : ∀ i : grid0.Coords, EltTy.bits .i32 = 32 ∨ (Rect.unit (s := S11008x4096) (fun a => cc0_transform_2 i a * S512x4096.size a) (fun a => (Pipeline.Clip.of (cc0_transform_2 i a) (S512x4096.size a) (S11008x4096.size a)).extent (S512x4096.size a)) fun a => Pipeline.Clip.inb (Pipeline.Clip.ok_of (hstart0_2 i a))).WholeWords (EltTy.packing .i32)
  hwxs0_2 : ∀ i : grid0.Coords, EltTy.bits .i32 = 32 ∨ (Rect.unit (s := S512x4096) (fun _ => 0) (fun a => (Pipeline.Clip.of (cc0_transform_2 i a) (S512x4096.size a) (S11008x4096.size a)).extent (S512x4096.size a)) fun a => (Nat.zero_add _).trans_le (Pipeline.Clip.extent_le (Pipeline.Clip.ok_of (hstart0_2 i a)))).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S1x512.size a < S1x11008.size a
  hwx0_3 : ∀ i : grid0.Coords, EltTy.bits .f32 = 32 ∨ (Rect.unit (s := S1x11008) (fun a => cc0_transform_3 i a * S1x512.size a) (fun a => (Pipeline.Clip.of (cc0_transform_3 i a) (S1x512.size a) (S1x11008.size a)).extent (S1x512.size a)) fun a => Pipeline.Clip.inb (Pipeline.Clip.ok_of (hstart0_3 i a))).WholeWords (EltTy.packing .f32)
  hwxs0_3 : ∀ i : grid0.Coords, EltTy.bits .f32 = 32 ∨ (Rect.unit (s := S1x512) (fun _ => 0) (fun a => (Pipeline.Clip.of (cc0_transform_3 i a) (S1x512.size a) (S1x11008.size a)).extent (S1x512.size a)) fun a => (Nat.zero_add _).trans_le (Pipeline.Clip.extent_le (Pipeline.Clip.ok_of (hstart0_3 i a)))).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S1x512.size a < S1x11008.size a
  hwx0_4 : ∀ i : grid0.Coords, EltTy.bits .f32 = 32 ∨ (Rect.unit (s := S1x11008) (fun a => cc0_transform_4 i a * S1x512.size a) (fun a => (Pipeline.Clip.of (cc0_transform_4 i a) (S1x512.size a) (S1x11008.size a)).extent (S1x512.size a)) fun a => Pipeline.Clip.inb (Pipeline.Clip.ok_of (hstart0_4 i a))).WholeWords (EltTy.packing .f32)
  hwxs0_4 : ∀ i : grid0.Coords, EltTy.bits .f32 = 32 ∨ (Rect.unit (s := S1x512) (fun _ => 0) (fun a => (Pipeline.Clip.of (cc0_transform_4 i a) (S1x512.size a) (S1x11008.size a)).extent (S1x512.size a)) fun a => (Nat.zero_add _).trans_le (Pipeline.Clip.extent_le (Pipeline.Clip.ok_of (hstart0_4 i a)))).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hstart0_5 : ∀ (i : grid0.Coords) a, cc0_transform_5 i a * S256x512.size a < S256x11008.size a
  hwx0_5 : ∀ i : grid0.Coords, EltTy.bits .f32 = 32 ∨ (Rect.unit (s := S256x11008) (fun a => cc0_transform_5 i a * S256x512.size a) (fun a => (Pipeline.Clip.of (cc0_transform_5 i a) (S256x512.size a) (S256x11008.size a)).extent (S256x512.size a)) fun a => Pipeline.Clip.inb (Pipeline.Clip.ok_of (hstart0_5 i a))).WholeWords (EltTy.packing .f32)
  hwxs0_5 : ∀ i : grid0.Coords, EltTy.bits .f32 = 32 ∨ (Rect.unit (s := S256x512) (fun _ => 0) (fun a => (Pipeline.Clip.of (cc0_transform_5 i a) (S256x512.size a) (S256x11008.size a)).extent (S256x512.size a)) fun a => (Nat.zero_add _).trans_le (Pipeline.Clip.extent_le (Pipeline.Clip.ok_of (hstart0_5 i a)))).WholeWords (EltTy.packing .f32)

variable [Facts₀]

def dot_S256x4096_S512x4096_S256x512_1_1_0_0_n_n : DotDims S256x4096 S512x4096 S256x512 where
  lhsContracting := [1]
  rhsContracting := [1]
  lhsNonContracting := [0]
  rhsNonContracting := [0]
  lhsBatch := []
  rhsBatch := []
  wf := dot_S256x4096_S512x4096_S256x512_1_1_0_0_n_n_wf

abbrev win0_0 : Pipeline.Window sig grid0 :=
  Pipeline.Window.ofSpec (Memref.whole main_v0) S256x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v3) S256x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpecClip (Memref.whole main_arg1) S512x4096.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v4) S1x512.size cc0_transform_3 reads0_3 false false 2 stage0_3 sem0_3
    hrank0 hreads0_3 hstart0_3 nbuf0_3 (Memref.isWhole_whole _) hwx0_3 hwxs0_3 hstage0_3

abbrev win0_4 : Pipeline.Window sig grid0 :=
  Pipeline.Window.ofSpecClip (Memref.whole main_v5) S1x512.size cc0_transform_4 reads0_4 false false 2 stage0_4 sem0_4
    hrank0 hreads0_4 hstart0_4 nbuf0_4 (Memref.isWhole_whole _) hwx0_4 hwxs0_4 hstage0_4

abbrev win0_5 : Pipeline.Window sig grid0 :=
  Pipeline.Window.ofSpecClip (Memref.whole main_v6) S256x512.size cc0_transform_5 reads0_5 true false 2 stage0_5 sem0_5
    hrank0 hreads0_5 hstart0_5 nbuf0_5 (Memref.isWhole_whole _) hwx0_5 hwxs0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S256x4096 : Shape := ⟨2, ![256, 4096]⟩
abbrev S11008x4096 : Shape := ⟨2, ![11008, 4096]⟩
abbrev S11008 : Shape := ⟨1, ![11008]⟩
abbrev S256x11008 : Shape := ⟨2, ![256, 11008]⟩
abbrev S1x11008 : Shape := ⟨2, ![1, 11008]⟩

abbrev nBuf : Space → Nat
  | .hbm => 12
  | .vmem => 0
  | .smem => 0
  | _ => 0

abbrev bufTy : (tb : Table) → Fin (tcTables nBuf tb) → BufTy
  | .hbm, ⟨0, _⟩ => ⟨S256x4096, .f32⟩
  | .hbm, ⟨1, _⟩ => ⟨S11008x4096, .i32⟩
  | .hbm, ⟨2, _⟩ => ⟨S11008, .f32⟩
  | .hbm, ⟨3, _⟩ => ⟨S11008, .f32⟩
  | .hbm, ⟨4, _⟩ => ⟨S11008x4096, .f32⟩
  | .hbm, ⟨5, _⟩ => ⟨S256x11008, .f32⟩
  | .hbm, ⟨6, _⟩ => ⟨S1x11008, .f32⟩
  | .hbm, ⟨7, _⟩ => ⟨S256x11008, .f32⟩
  | .hbm, ⟨8, _⟩ => ⟨S256x11008, .f32⟩
  | .hbm, ⟨9, _⟩ => ⟨S1x11008, .f32⟩
  | .hbm, ⟨10, _⟩ => ⟨S256x11008, .f32⟩
  | .hbm, ⟨11, _⟩ => ⟨S256x11008, .f32⟩
  | _, _ => ⟨S256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]

class Facts₀ : Prop where
  bcast_S11008_S1x11008_1 : S11008.BroadcastsInDim S1x11008 (![1] : Fin 1 → Fin S1x11008.rank)
  bcast_S1x11008_S256x11008_0_1 : S1x11008.BroadcastsInDim S256x11008 (![0, 1] : Fin 2 → Fin S256x11008.rank)
  dot_S256x4096_S11008x4096_S256x11008_1_1_0_0_n_n_wf : DotDims.WF S256x4096 S11008x4096 S256x11008 [1] [1] [0] [0] [] []

variable [Facts₀]

def dot_S256x4096_S11008x4096_S256x11008_1_1_0_0_n_n : DotDims S256x4096 S11008x4096 S256x11008 where
  lhsContracting := [1]
  rhsContracting := [1]
  lhsNonContracting := [0]
  rhsNonContracting := [0]
  lhsBatch := []
  rhsBatch := []
  wf := dot_S256x4096_S11008x4096_S256x11008_1_1_0_0_n_n_wf

class Facts : Prop extends Facts₀ where

variable [Facts]
-- ==== Proof.KBody.lean ====
/-
  One grid step of the kernel, as a statement about its six staging buffers.

  The step reads the two activation buffers (the high part `xh` and the residual part `xl` of the activations,
  256 rows of 4096 features), one tile `wt` of 512 weight rows, and the matching 512 scales `sc` and biases `bi`,
  and overwrites the whole 256 × 512 result buffer with

      (xh · wtᵀ + xl · wtᵀ) ⊙ sc + bi

  (the two products accumulated from zero, the scale and the bias broadcast down the rows). Nothing else is
  written: the five input buffers are left as found, and what the result buffer held before is irrelevant.
  The statement holds at every reading of the float operations, so it serves both the word-level program and
  its idealization.
-/
import proofs.«107610_j5875515261093_2_alg».proof.Proof.Gen.KernelIdeal.Frame
import proofs.«107610_j5875515261093_2_alg».proof.Proof.Gen.KernelIdeal.Skeleton
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The rectangles the step reads and writes through: each is its whole buffer -/

abbrev rW : Rect S512x4096 := Rect.unit (s := S512x4096) ![0, 0] S512x4096.size inb_S512x4096_S512x4096_0_0
abbrev rX : Rect S256x4096 := Rect.unit (s := S256x4096) ![0, 0] S256x4096.size inb_S256x4096_S256x4096_0_0
abbrev rV : Rect S1x512 := Rect.unit (s := S1x512) ![0, 0] S1x512.size inb_S1x512_S1x512_0_0
abbrev rO : Rect S256x512 := Rect.unit (s := S256x512) ![0, 0] S256x512.size inb_S256x512_S256x512_0_0

/-- What the result buffer holds after the step, from what the five input buffers hold: the one store's value,
    laid over the whole buffer. -/
def stepOut (xh xl : Vec F S256x4096 .bf16) (wt : Vec F S512x4096 .i32) (sc bi : Vec F S1x512 .f32) : Vec F S256x512 .f32 :=
  View.canon [⟨rO, k0_pay1 (View.ld wt rW) (View.ld xh rX) (View.ld xl rX) (View.ld sc rV) (View.ld bi rV)⟩]

/-- The one store covers the result buffer. -/
theorem stepCover (p0 : Vec F S256x512 .f32) (y : S256x512.Idx) :
    ∃ pc ∈ ([⟨rO, p0⟩] : List (View.Piece (Elt F) S256x512 .f32)), y ∈ pc.1.set :=
  View.cover_of_tiled [⟨rO, p0⟩] S256x512.size (by rfl) y

/-- The offsets are all zero: every access is of a whole buffer. -/
theorem off_zero : (![0, 0] : Fin 2 → Nat) = fun _ => 0 := funext fun a => by fin_cases a <;> rfl

/-- So the result is the step's arithmetic applied to the buffers' contents themselves. -/
theorem stepOut_eq (xh xl : Vec F S256x4096 .bf16) (wt : Vec F S512x4096 .i32) (sc bi : Vec F S1x512 .f32) :
    stepOut xh xl wt sc bi = k0_pay1 wt xh xl sc bi := by
  unfold stepOut
  rw [View.canon_unit_zero off_zero]
  simp only [View.ld_unit_zero (S := S512x4096) off_zero, View.ld_unit_zero (S := S256x4096) off_zero,
    View.ld_unit_zero (S := S1x512) off_zero]

/-! ## The step's triple -/

set_option maxHeartbeats 2000000 in
/-- The step on whole staging memrefs: the five inputs' at contents `xh xl wt sc bi`, the result's at anything,
    run to the continuation holding the inputs' as they were and the result's at `stepOut` of them. -/
theorem sound_kernel (c : Dev nD) (E : Set ℕ) (i : grid0.Coords)
    (arg1 : Memref sig .tc .vmem S256x4096 .bf16) (harg1 : arg1.IsWhole) (arg2 : Memref sig .tc .vmem S256x4096 .bf16) (harg2 : arg2.IsWhole)
    (arg3 : Memref sig .tc .vmem S512x4096 .i32) (harg3 : arg3.IsWhole) (arg4 : Memref sig .tc .vmem S1x512 .f32) (harg4 : arg4.IsWhole)
    (arg5 : Memref sig .tc .vmem S1x512 .f32) (harg5 : arg5.IsWhole) (arg6 : Memref sig .tc .vmem S256x512 .f32) (harg6 : arg6.IsWhole)
    (xh xl : Vec F S256x4096 .bf16) (wt : Vec F S512x4096 .i32) (sc bi : Vec F S1x512 .f32) (K : PUnit → sProp 𝕄) :
    iprop(owns (c : Thread nD τ) arg1 fullShare xh ∗ owns (c : Thread nD τ) arg2 fullShare xl ∗ owns (c : Thread nD τ) arg3 fullShare wt
        ∗ owns (c : Thread nD τ) arg4 fullShare sc ∗ owns (c : Thread nD τ) arg5 fullShare bi ∗ (∃ d, owns (c : Thread nD τ) arg6 fullShare d)
        ∗ (iprop(owns (c : Thread nD τ) arg1 fullShare xh ∗ owns (c : Thread nD τ) arg2 fullShare xl ∗ owns (c : Thread nD τ) arg3 fullShare wt
            ∗ owns (c : Thread nD τ) arg4 fullShare sc ∗ owns (c : Thread nD τ) arg5 fullShare bi
            ∗ owns (c : Thread nD τ) arg6 fullShare (stepOut xh xl wt sc bi)) -∗ K ⟨⟩))
      ⊢ wp frame (wpE (defs₀ (F := F)) Variants.none c none) E (cc0__kernel i arg1 harg1 arg2 harg2 arg3 harg3 arg4 harg4 arg5 harg5 arg6 harg6) K := by
  simp only [cc0__kernel_eq_skeleton]; unfold cc0__kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (stepCover _)

end Cert.KernelIdeal.Hand

end
-- ==== Proof.LibDotNT.lean ====
/-
  A matrix product against a transposed right operand, read at an entry.

  For dimension numbers that contract the SECOND axis of both operands (no batch axes), the product of an M × K
  array `A` by an N × K array `B` is the M × N array `A · Bᵀ`: at entry (r, c) the sum over k < K of
  `A(r, k) · B(c, k)`. This holds for a tile product into a zero accumulator and for a host product alike, the
  numbers being extended reals and every operation exact. The contraction index of the dimension numbers is a
  one-coordinate tuple; the sum is re-indexed by that coordinate.
-/
import Idealize.ShloMosaic.PureOps.Ideal.Laws
import Idealize.ShloMosaic.Lib.ValueIdx

noncomputable section

namespace Cert.LibDotNT

open Idealize.ShloMosaic Idealize.ShloMosaic.ValueIdx

variable {M K N : Nat} {φ₁ φ₂ : FTy}
  (D : DotDims (⟨2, ![M, K]⟩ : Shape) (⟨2, ![N, K]⟩ : Shape) (⟨2, ![M, N]⟩ : Shape))
  (hrank : D.contr.rank = 1) (hsize : D.contr.size ⟨0, by omega⟩ = K)
  (hlc : D.lhsContracting = [1]) (hrc : D.rhsContracting = [1])
  (hL0 : ∀ j k, (D.lhsIdx j k 0).val = (j 0).val) (hR0 : ∀ j k, (D.rhsIdx j k 0).val = (j 1).val)

include hlc hL0 in
/-- The left operand's index at output (r, c) and contraction coordinate k is (r, k). -/
theorem lhsIdx_eq (r : Fin M) (c : Fin N) (k : Fin K) :
    D.lhsIdx (ix2 r c) ((contrEquiv1 D K hrank hsize).symm k) = ix2 r k := by
  funext a; apply Fin.ext
  match a with
  | ⟨0, _⟩ => exact hL0 _ _
  | ⟨1, _⟩ => exact (D.lhsIdx_val_of_single hlc _ _).trans (contrEquiv1_symm_val D K hrank hsize k)

include hrc hR0 in
/-- The right operand's index there is (c, k): the right operand is read transposed. -/
theorem rhsIdx_eq (r : Fin M) (c : Fin N) (k : Fin K) :
    D.rhsIdx (ix2 r c) ((contrEquiv1 D K hrank hsize).symm k) = ix2 c k := by
  funext a; apply Fin.ext
  match a with
  | ⟨0, _⟩ => exact hR0 _ _
  | ⟨1, _⟩ => exact (D.rhsIdx_val_of_single hrc _ _).trans (contrEquiv1_symm_val D K hrank hsize k)

include hrank hsize hlc hrc hL0 hR0 in
/-- The sum over the contraction index is the sum over k < K of the two operands at (r, k) and (c, k). -/
theorem sum_contr (lhs : FVec Ideal (⟨2, ![M, K]⟩ : Shape) φ₁) (rhs : FVec Ideal (⟨2, ![N, K]⟩ : Shape) φ₂) (r : Fin M) (c : Fin N) :
    (∑ q : D.contr.Idx, lhs (D.lhsIdx (ix2 r c) q) * rhs (D.rhsIdx (ix2 r c) q)) = ∑ k : Fin K, lhs (ix2 r k) * rhs (ix2 c k) := by
  rw [← Equiv.sum_comp (contrEquiv1 D K hrank hsize).symm]
  refine Finset.sum_congr rfl fun k _ => ?_
  rw [lhsIdx_eq D hrank hsize hlc hL0 r c k, rhsIdx_eq D hrank hsize hrc hR0 r c k]

include hrank hsize hlc hrc hL0 hR0 in
/-- A tile product into the zero accumulator, at an entry. -/
theorem matmul_zero_apply (prec : Option ContractPrecision) (lhs : FVec Ideal (⟨2, ![M, K]⟩ : Shape) φ₁)
    (rhs : FVec Ideal (⟨2, ![N, K]⟩ : Shape) φ₂) (r : Fin M) (c : Fin N) :
    FloatOps.matmul D prec lhs rhs (constant (⟨2, ![M, N]⟩ : Shape) .f32 0x00000000#32) (ix2 r c)
      = ∑ k : Fin K, lhs (ix2 r k) * rhs (ix2 c k) :=
  (Ideal.matmul_constant_zero_apply D prec lhs rhs (ix2 r c)).trans (sum_contr D hrank hsize hlc hrc hL0 hR0 lhs rhs r c)

include hrank hsize hlc hrc hL0 hR0 in
/-- A host product, at an entry, whatever its schedule. -/
theorem dotGeneral_apply (prec : Option ContractPrecision) (sched : HostSchedule) (lhs : FVec Ideal (⟨2, ![M, K]⟩ : Shape) φ₁)
    (rhs : FVec Ideal (⟨2, ![N, K]⟩ : Shape) φ₂) (r : Fin M) (c : Fin N) :
    FloatOps.dotGeneral D prec sched lhs rhs (ix2 r c) = ∑ k : Fin K, lhs (ix2 r k) * rhs (ix2 c k) :=
  (Ideal.dotGeneral_apply D prec sched lhs rhs (ix2 r c)).trans (sum_contr D hrank hsize hlc hrc hL0 hR0 lhs rhs r c)

end Cert.LibDotNT

end
-- ==== Proof.KPay.lean ====
/-
  One entry of a grid step's result, over the extended reals.

  With every float operation exact, entry (p, q) of the step's 256 × 512 result is

      (∑ₖ xh(p, k) · wt(q, k) + ∑ₖ xl(p, k) · wt(q, k)) · sc(0, q) + bi(0, q)

  where the weights are read as the integers they are: the two tile products are plain sums over the 4096 features,
  the scale and bias rows are broadcast down the 256 rows. So an entry in column q depends on the weight tile only
  through its row q, and on the scale and bias rows only through their column q.
-/
import proofs.«107610_j5875515261093_2_alg».proof.Proof.Gen.KernelIdeal.Skeleton
import proofs.«107610_j5875515261093_2_alg».proof.Proof.LibDotNT
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen
open Idealize.ShloMosaic Idealize.ShloMosaic.ValueIdx

/-- The left operand's row is the output's row; -/
theorem dot_lhs0 (j : S256x512.Idx) (k : dot_S256x4096_S512x4096_S256x512_1_1_0_0_n_n.contr.Idx) :
    (dot_S256x4096_S512x4096_S256x512_1_1_0_0_n_n.lhsIdx j k 0).val = (j 0).val := by
  unfold DotDims.lhsIdx
  rw [dif_neg (show ¬(0 : Fin S256x4096.rank) ∈ dot_S256x4096_S512x4096_S256x512_1_1_0_0_n_n.lhsBatch by decide),
    dif_pos (show (0 : Fin S256x4096.rank) ∈ dot_S256x4096_S512x4096_S256x512_1_1_0_0_n_n.lhsNonContracting by decide)]
  rfl
/-- the right operand's row is the output's column. -/
theorem dot_rhs0 (j : S256x512.Idx) (k : dot_S256x4096_S512x4096_S256x512_1_1_0_0_n_n.contr.Idx) :
    (dot_S256x4096_S512x4096_S256x512_1_1_0_0_n_n.rhsIdx j k 0).val = (j 1).val := by
  unfold DotDims.rhsIdx
  rw [dif_neg (show ¬(0 : Fin S512x4096.rank) ∈ dot_S256x4096_S512x4096_S256x512_1_1_0_0_n_n.rhsBatch by decide),
    dif_pos (show (0 : Fin S512x4096.rank) ∈ dot_S256x4096_S512x4096_S256x512_1_1_0_0_n_n.rhsNonContracting by decide)]
  rfl

/-- A tile product of activations by the weight tile, from zero, at entry (p, q): the sum over the features. -/
theorem tile_dot (x : FVec Ideal S256x4096 .bf16) (wt : IVec S512x4096 32) (p : Fin 256) (q : Fin 512) :
    FloatOps.matmul (F := Ideal) (φ₁ := .bf16) (φ₂ := .bf16) dot_S256x4096_S512x4096_S256x512_1_1_0_0_n_n none (shapeCast S256x4096 x shapeCasts_S256x4096_S256x4096)
        (sitofp (F := Ideal) .bf16 wt) (constant S256x512 .f32 0x00000000#32) (ix2 p q)
      = ∑ k : Fin 4096, x (ix2 p k) * (((wt (ix2 q k)).toInt : ℝ) : EReal) := by
  rw [shapeCast_self]
  exact Cert.LibDotNT.matmul_zero_apply dot_S256x4096_S512x4096_S256x512_1_1_0_0_n_n rfl rfl rfl rfl dot_lhs0 dot_rhs0 none x
    (sitofp (F := Ideal) .bf16 wt) p q

/-- A 1 × 512 row broadcast down 256 rows, at entry (p, q): the row's column q. -/
theorem row_bcast (v : FVec Ideal S1x512 .f32) (p : Fin 256) (q : Fin 512) :
    broadcastTo S256x512 (shapeCast S1x512 v shapeCasts_S1x512_S1x512) broadcasts_S1x512_S256x512 (ix2 p q) = v (ix2 (0 : Fin 1) q) := by
  rw [shapeCast_self]
  exact broadcastTo_apply v broadcasts_S1x512_S256x512 (ix2 p q) (ix2 (0 : Fin 1) q) (fun a => match a with
    | ⟨0, _⟩ => by show (0 : Nat) = if (1 : Nat) = 1 then 0 else p.val; rw [if_pos rfl]
    | ⟨1, _⟩ => by show q.val = if (512 : Nat) = 1 then 0 else q.val; rw [if_neg (by decide)])

/-- Entry (p, q) of the step's result. -/
theorem pay_apply (wt : Vec Ideal S512x4096 .i32) (xh xl : Vec Ideal S256x4096 .bf16) (sc bi : Vec Ideal S1x512 .f32)
    (p : Fin 256) (q : Fin 512) :
    k0_pay1 (F := Ideal) wt xh xl sc bi (ix2 p q)
      = ((∑ k : Fin 4096, xh (ix2 p k) * (((wt (ix2 q k)).toInt : ℝ) : EReal))
          + ∑ k : Fin 4096, xl (ix2 p k) * (((wt (ix2 q k)).toInt : ℝ) : EReal)) * sc (ix2 (0 : Fin 1) q) + bi (ix2 (0 : Fin 1) q) := by
  rw [← tile_dot xh wt p q, ← tile_dot xl wt p q, ← row_bcast sc p q, ← row_bcast bi p q]
  rfl

/-- An entry in column q sees the tile's row q and the rows' column q only. -/
theorem pay_congr (wt wt' : Vec Ideal S512x4096 .i32) (xh xl : Vec Ideal S256x4096 .bf16) (sc sc' bi bi' : Vec Ideal S1x512 .f32)
    (p : Fin 256) (q : Fin 512) (hw : ∀ k : Fin 4096, wt (ix2 q k) = wt' (ix2 q k))
    (hs : sc (ix2 (0 : Fin 1) q) = sc' (ix2 (0 : Fin 1) q)) (hb : bi (ix2 (0 : Fin 1) q) = bi' (ix2 (0 : Fin 1) q)) :
    k0_pay1 (F := Ideal) wt xh xl sc bi (ix2 p q) = k0_pay1 (F := Ideal) wt' xh xl sc' bi' (ix2 p q) := by
  rw [pay_apply, pay_apply, hs, hb]
  simp only [hw]

end Cert.KernelIdeal.Hand

end
-- ==== Proof.KData.lean ====
/-
  The 22 grid steps of the idealized kernel, put together.

  Step `t` works on output columns 512·t … 512·t + 511. It finds the two activation buffers holding all 256 × 4096
  activations (fetched once), and the weight, scale and bias buffers holding tile `t` of their arrays. The last tile
  overhangs: the arrays have 11008 = 21·512 + 256 channels, so at step 21 only the first 256 rows of the weight
  buffer and the first 256 columns of the scale and bias buffers come from the arrays; the rest is whatever the
  buffers happened to hold. The step writes the whole 256 × 512 result buffer, and the write-back copies out only
  the columns that exist in the result array.

  What makes this sound is that column q of the step's result reads row q of the weight buffer and column q of the
  scale and bias buffers and nothing else of them (an entry of a matrix product is a sum along one row of each
  operand): the columns that are copied out never see the part of the buffers past the arrays' end. So the proof data
  may fill that part with any word it likes, and the step's result agrees with the proof data's on every column that
  is copied out.
-/
import proofs.«107610_j5875515261093_2_alg».proof.Proof.KBody
import proofs.«107610_j5875515261093_2_alg».proof.Proof.KPay
import Idealize.ShloMosaic.Lib.Pipeline.Frame
import Idealize.ShloMosaic.Lib.Pipeline.FrameBody
import Idealize.ShloMosaic.Lib.Pipeline.Kit
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-! ## The proof data -/

/-- Tile `t` of the weights as a full 512 × 4096 buffer: the rows inside the array, and the zero word past its end. -/
def wblk (c : Dev nD) (t : Fin cfg0.N) : S512x4096.Idx → Elt F .i32 :=
  win0_2.fill (grid0.coords t) (fun _ => 0#32) (iblk m c 2 t)
/-- Tile `t` of the scales as a full 1 × 512 buffer, likewise; -/
def sblk (c : Dev nD) (t : Fin cfg0.N) : S1x512.Idx → Elt F .f32 :=
  win0_3.fill (grid0.coords t) (fun _ => Scalar.ofBits .f32 0#32) (iblk m c 3 t)
/-- and of the biases. -/
def bblk (c : Dev nD) (t : Fin cfg0.N) : S1x512.Idx → Elt F .f32 :=
  win0_4.fill (grid0.coords t) (fun _ => Scalar.ofBits .f32 0#32) (iblk m c 4 t)

/-- The proof data of the one pipeline on core `c`: the arrays as the region finds them; after step `t` the
    activation buffers at the activations, the tile buffers at their tiles, the result buffer at the step's result of
    those; the invariant is the scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => wblk m c t
    | ⟨3, _⟩ => sblk m c t
    | ⟨4, _⟩ => bblk m c t
    | ⟨5, _⟩ => stepOut (iblk m c 0 t) (iblk m c 1 t) (wblk m c t) (sblk m c t) (bblk m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = wblk m c t := by dsimp only [dats]
theorem after0_3 (c : Dev nD) (t : Fin cfg0.N) : (dats m 0 c).after 3 t = sblk m c t := by dsimp only [dats]
theorem after0_4 (c : Dev nD) (t : Fin cfg0.N) : (dats m 0 c).after 4 t = bblk m c t := by dsimp only [dats]
theorem after0_5 (c : Dev nD) (t : Fin cfg0.N) :
    (dats m 0 c).after 5 t = stepOut (iblk m c 0 t) (iblk m c 1 t) (wblk m c t) (sblk m c t) (bblk m c t) := by dsimp only [dats]

/-! ## What a step finds in each buffer -/

/-- The activation buffers hold the activations at every step (fetched at the first, kept afterwards). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- The tile buffers are fetched at every step: the tile on the part inside the array, `d` past its end. -/
theorem before0_2 (c : Dev nD) (t : Fin cfg0.N) (d) :
    (dats m 0 c).before 2 t d = win0_2.fill (grid0.coords t) d (iblk m c 2 t) := by
  unfold Dat.before; rw [if_pos (fetch0_2 t)]; rfl
theorem before0_3 (c : Dev nD) (t : Fin cfg0.N) (d) :
    (dats m 0 c).before 3 t d = win0_3.fill (grid0.coords t) d (iblk m c 3 t) := by
  unfold Dat.before; rw [if_pos (fetch0_3 t)]; rfl
theorem before0_4 (c : Dev nD) (t : Fin cfg0.N) (d) :
    (dats m 0 c).before 4 t d = win0_4.fill (grid0.coords t) d (iblk m c 4 t) := by
  unfold Dat.before; rw [if_pos (fetch0_4 t)]; rfl

/-- The result buffer is written back after every step, so each step finds it holding anything. -/
theorem before0_5 (c : Dev nD) (t : Fin cfg0.N) (d) : (dats m 0 c).before 5 t d = d :=
  (dats m 0 c).before_out_reset 5 rfl t (by
    by_cases h : t.val = 0
    · exact .inl h
    · exact .inr ⟨h, flush0_5 _⟩) d

/-! ## The parts of the buffers inside the arrays, step by step -/

/-- At every step the weight tile's rows inside the array are as many as the result's columns inside its array, and
    all 4096 features of each; the scale and bias tiles' columns likewise; and the result has all its 256 rows. -/
theorem xsize_facts : ∀ t : Fin cfg0.N,
    win0_2.xsize (grid0.coords t) 0 = win0_5.xsize (grid0.coords t) 1 ∧ win0_2.xsize (grid0.coords t) 1 = 4096
      ∧ win0_3.xsize (grid0.coords t) 0 = 1 ∧ win0_3.xsize (grid0.coords t) 1 = win0_5.xsize (grid0.coords t) 1
      ∧ win0_4.xsize (grid0.coords t) 0 = 1 ∧ win0_4.xsize (grid0.coords t) 1 = win0_5.xsize (grid0.coords t) 1 :=
  (by decide +kernel : ∀ t : Fin grid0.N,
    win0_2.xsize (grid0.coords t) 0 = win0_5.xsize (grid0.coords t) 1 ∧ win0_2.xsize (grid0.coords t) 1 = 4096
      ∧ win0_3.xsize (grid0.coords t) 0 = 1 ∧ win0_3.xsize (grid0.coords t) 1 = win0_5.xsize (grid0.coords t) 1
      ∧ win0_4.xsize (grid0.coords t) 0 = 1 ∧ win0_4.xsize (grid0.coords t) 1 = win0_5.xsize (grid0.coords t) 1)

/-- Two fillings of a buffer agree wherever the fetch wrote. -/
theorem fill_agree {G : Pipeline.Grid} (w : Window sig G) {α : Type} (i : G.Coords) (d d' : w.block.Idx → α)
    (g : (w.xblock i).Idx → α) (j : w.block.Idx) (h : ∀ a, (j a).val < w.xsize i a) : w.fill i d g j = w.fill i d' g j := by
  have hm : w.moved i j = true := (w.moved_iff i j).mpr h
  unfold Window.fill; rw [dif_pos hm, dif_pos hm]

end Cert.KernelIdeal.Hand

end
-- ==== Proof.KRun.lean ====
/-
  The idealized kernel's run: every step meets its obligation, so the whole grid runs to the end.

  At a step the weight, scale and bias buffers hold their tiles on the part inside the arrays and unknown words past
  it. The step's result on the columns that are copied out does not depend on those words (`cut_step`): column q of
  the result reads row q of the weight buffer and column q of the scale and bias buffers, and a column that is
  copied out has q below the number of channels left in the tile, where all three buffers hold the tile. That is
  exactly what the obligation of a buffer whose tile may overhang asks: agreement on the part that moves.
-/
import proofs.«107610_j5875515261093_2_alg».proof.Proof.KData

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Idealize.ShloMosaic.ValueIdx

variable (m : (ℓ : Loc nD τ sig) → Buf (Elt Ideal) ℓ) (ρ : Dev nD → PrngReg)

/-- The columns of a step's result that are copied out are the same whatever fills the tile buffers past the arrays'
    end. -/
theorem cut_step (c : Dev nD) (t : Fin cfg0.N) (d2 d2' : S512x4096.Idx → Elt Ideal .i32) (d3 d3' d4 d4' : S1x512.Idx → Elt Ideal .f32) :
    win0_5.cut (grid0.coords t) (stepOut (iblk m c 0 t) (iblk m c 1 t) (win0_2.fill (grid0.coords t) d2 (iblk m c 2 t))
        (win0_3.fill (grid0.coords t) d3 (iblk m c 3 t)) (win0_4.fill (grid0.coords t) d4 (iblk m c 4 t)))
      = win0_5.cut (grid0.coords t) (stepOut (iblk m c 0 t) (iblk m c 1 t) (win0_2.fill (grid0.coords t) d2' (iblk m c 2 t))
        (win0_3.fill (grid0.coords t) d3' (iblk m c 3 t)) (win0_4.fill (grid0.coords t) d4' (iblk m c 4 t))) := by
  funext j
  show stepOut _ _ _ _ _ (win0_5.xinj (grid0.coords t) j) = stepOut _ _ _ _ _ (win0_5.xinj (grid0.coords t) j)
  rw [stepOut_eq, stepOut_eq]
  obtain ⟨p, q, hpq, hq⟩ : ∃ (p : Fin 256) (q : Fin 512), (win0_5.xinj (grid0.coords t) j : S256x512.Idx) = ix2 p q
      ∧ q.val < win0_5.xsize (grid0.coords t) 1 :=
    ⟨_, _, eq_ix2 (win0_5.xinj (grid0.coords t) j : S256x512.Idx), (j 1).isLt⟩
  rw [hpq]
  obtain ⟨h20, h21, h30, h31, h40, h41⟩ := xsize_facts t
  refine pay_congr _ _ _ _ _ _ _ _ p q (fun k => fill_agree win0_2 _ _ _ _ _ (fun a => ?_))
    (fill_agree win0_3 _ _ _ _ _ (fun a => ?_)) (fill_agree win0_4 _ _ _ _ _ (fun a => ?_))
  · match a with
    | ⟨0, _⟩ => show q.val < win0_2.xsize (grid0.coords t) 0; rw [h20]; exact hq
    | ⟨1, _⟩ => show k.val < win0_2.xsize (grid0.coords t) 1; rw [h21]; exact k.isLt
  · match a with
    | ⟨0, _⟩ => show (0 : Nat) < win0_3.xsize (grid0.coords t) 0; rw [h30]; exact Nat.one_pos
    | ⟨1, _⟩ => show q.val < win0_3.xsize (grid0.coords t) 1; rw [h31]; exact hq
  · match a with
    | ⟨0, _⟩ => show (0 : Nat) < win0_4.xsize (grid0.coords t) 0; rw [h40]; exact Nat.one_pos
    | ⟨1, _⟩ => show q.val < win0_4.xsize (grid0.coords t) 1; rw [h41]; exact hq

/-- Every step meets its obligation: handed the activations, the tiles (filled out with anything) and any result buffer,
    it leaves the inputs as they were and a result that agrees with the proof data's on every column copied out. -/
theorem body_obligation (c : Dev nD) : BodyObligationLoose (dats (F := Ideal) m 0 c) (defs₀ (F := Ideal)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  change _ ⊢ wp frame (wpE (defs₀ (F := Ideal)) Variants.none c none) Set.univ (bodyAt0 t) _
  unfold bodyAt0
  iintro ⟨HΦ, Ho, ⟨%d0, H0⟩, ⟨%d1, H1⟩, ⟨%d2, H2⟩, ⟨%d3, H3⟩, ⟨%d4, H4⟩, ⟨%d5, H5⟩⟩
  rw [before0_0 m c t d0, before0_1 m c t d1, before0_2 m c t d2, before0_3 m c t d3, before0_4 m c t d4, before0_5 m c t d5]
  iapply (sound_kernel (F := Ideal) c Set.univ (grid0.coords t) _ _ _ _ _ _ _ _ _ _ _ _ (iblk m c 0 t) (iblk m c 1 t)
    (win0_2.fill (grid0.coords t) d2 (iblk m c 2 t)) (win0_3.fill (grid0.coords t) d3 (iblk m c 3 t))
    (win0_4.fill (grid0.coords t) d4 (iblk m c 4 t)) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · rw [after0_0]; iexact H0
  isplitl [H1]; · rw [after0_1]; iexact H1
  have e2 : win0_2.cut (grid0.coords t) (wblk m c t) = iblk m c 2 t := win0_2.cut_fill _ _ _
  have e3 : win0_3.cut (grid0.coords t) (sblk m c t) = iblk m c 3 t := win0_3.cut_fill _ _ _
  have e4 : win0_4.cut (grid0.coords t) (bblk m c t) = iblk m c 4 t := win0_4.cut_fill _ _ _
  isplitl [H2]
  · iexists d2
    rw [after0_2]
    change _ ⊢ owns (c : Thread nD τ) (stage0_2 (cfg0.slots t 2)) fullShare (win0_2.fill (grid0.coords t) d2 (win0_2.cut (grid0.coords t) (wblk m c t)))
    rw [e2]; try iexact H2
  isplitl [H3]
  · iexists d3
    rw [after0_3]
    change _ ⊢ owns (c : Thread nD τ) (stage0_3 (cfg0.slots t 3)) fullShare (win0_3.fill (grid0.coords t) d3 (win0_3.cut (grid0.coords t) (sblk m c t)))
    rw [e3]; try iexact H3
  isplitl [H4]
  · iexists d4
    rw [after0_4]
    change _ ⊢ owns (c : Thread nD τ) (stage0_4 (cfg0.slots t 4)) fullShare (win0_4.fill (grid0.coords t) d4 (win0_4.cut (grid0.coords t) (bblk m c t)))
    rw [e4]; try iexact H4
  · iexists (stepOut (iblk m c 0 t) (iblk m c 1 t) (win0_2.fill (grid0.coords t) d2 (iblk m c 2 t))
      (win0_3.fill (grid0.coords t) d3 (iblk m c 3 t)) (win0_4.fill (grid0.coords t) d4 (iblk m c 4 t)))
    rw [after0_5]
    change _ ⊢ owns (c : Thread nD τ) (stage0_5 (cfg0.slots t 5)) fullShare (win0_5.fill (grid0.coords t) _
      (win0_5.cut (grid0.coords t) (stepOut (iblk m c 0 t) (iblk m c 1 t) (wblk m c t) (sblk m c t) (bblk m c t))))
    rw [win0_5.fill_congr_cut (grid0.coords t) (show win0_5.cut (grid0.coords t) (stepOut (iblk m c 0 t) (iblk m c 1 t)
        (win0_2.fill (grid0.coords t) d2 (iblk m c 2 t)) (win0_3.fill (grid0.coords t) d3 (iblk m c 3 t)) (win0_4.fill (grid0.coords t) d4 (iblk m c 4 t)))
      = win0_5.cut (grid0.coords t) (stepOut (iblk m c 0 t) (iblk m c 1 t) (wblk m c t) (sblk m c t) (bblk m c t)) from cut_step m c t d2 _ d3 _ d4 _)]
    try iexact H5

/-! ## The run and the frame -/

set_option backward.isDefEq.respectTransparency.types false in
/-- From any memory with zero counters every weakly fair execution of the idealized kernel terminates; every array a
    window stages ends at what the proof data computes, every other buffer as the region found it. -/
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- The idealized kernel runs to the end and leaves its four argument arrays as they were. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Hand

end
-- ==== Proof.Spec.lean ====
/-
  The function both programs compute, stated once over the argument arrays.

  For a token row `i` and an output channel `n` the result is the dot product of row `i` of the activations with
  row `n` of the integer weight matrix (each weight read as the integer it is), scaled by that channel's scale and
  shifted by that channel's bias:

      out[i, n] = (∑ₖ x[i, k] · w[n, k]) · s[n] + b[n]

  over the extended reals, with 256 token rows, 4096 input features and 11008 output channels.
-/
import Idealize.ShloMosaic.PureOps.Ideal
import Idealize.ShloMosaic.Lib.ValueIdx

noncomputable section

namespace Cert.Spec

open Idealize.ShloMosaic Idealize.ShloMosaic.ValueIdx

/-- The scaled, biased linear map: entry `(i, n)` is `(∑ₖ x[i,k]·w[n,k])·s[n] + b[n]`. -/
def linear (x : (⟨2, ![256, 4096]⟩ : Shape).Idx → EReal) (w : (⟨2, ![11008, 4096]⟩ : Shape).Idx → BitVec 32)
    (s b : (⟨1, ![11008]⟩ : Shape).Idx → EReal) : (⟨2, ![256, 11008]⟩ : Shape).Idx → EReal :=
  fun j => (∑ k : Fin 4096, x (ix2 (j 0) k) * (((w (ix2 (j 1) k)).toInt : ℝ) : EReal)) * s (ix1 (j 1)) + b (ix1 (j 1))

end Cert.Spec

end
-- ==== Proof.SpecAlg.lean ====
/-
  The kernel's arrangement of the computation, and why it is the plain one.

  The kernel does not multiply the activations `x` by the weights directly: it is handed a "high part" `xh` and a
  "residual part" `xl` of the activations, multiplies each by the weights, and adds the two products; and it reads
  the scale and the bias as 1 × 11008 one-row arrays. Entry (i, n) of its result is

      (∑ₖ xh[i,k]·w[n,k] + ∑ₖ xl[i,k]·w[n,k]) · sc[0,n] + bi[0,n].

  With exact arithmetic the high part is `x` itself (a change of float format changes nothing) and the residual is
  `x − x`. For a REAL `x` that is zero — this is where finiteness of the activations is needed: on the extended
  reals `∞ − ∞` is not zero — so the second sum vanishes term by term, and what is left is the plain
  `(∑ₖ x[i,k]·w[n,k])·s[n] + b[n]`.
-/
import proofs.«107610_j5875515261093_2_alg».proof.Proof.Spec

noncomputable section

namespace Cert.Spec

open Idealize.ShloMosaic Idealize.ShloMosaic.ValueIdx

/-- The kernel's arrangement: two products against the weights added, then the row-shaped scale and bias. -/
def tiled (xh xl : (⟨2, ![256, 4096]⟩ : Shape).Idx → EReal) (w : (⟨2, ![11008, 4096]⟩ : Shape).Idx → BitVec 32)
    (sc bi : (⟨2, ![1, 11008]⟩ : Shape).Idx → EReal) : (⟨2, ![256, 11008]⟩ : Shape).Idx → EReal :=
  fun j => ((∑ k : Fin 4096, xh (ix2 (j 0) k) * (((w (ix2 (j 1) k)).toInt : ℝ) : EReal))
      + ∑ k : Fin 4096, xl (ix2 (j 0) k) * (((w (ix2 (j 1) k)).toInt : ℝ) : EReal)) * sc (ix2 (0 : Fin 1) (j 1)) + bi (ix2 (0 : Fin 1) (j 1))

/-- A real number minus itself is zero, also as an extended real. -/
theorem real_sub_self (a : EReal) (h : ∃ r : ℝ, a = (r : EReal)) : a - a = 0 := by
  obtain ⟨r, rfl⟩ := h
  rw [← EReal.coe_sub, sub_self, EReal.coe_zero]

/-- With the high part the activations themselves, the residual their difference with themselves, the activations real
    and the rows the scale and bias vectors, the kernel's arrangement is the plain scaled, biased linear map. -/
theorem tiled_eq_linear (x xh xl : (⟨2, ![256, 4096]⟩ : Shape).Idx → EReal) (w : (⟨2, ![11008, 4096]⟩ : Shape).Idx → BitVec 32)
    (s b : (⟨1, ![11008]⟩ : Shape).Idx → EReal) (sc bi : (⟨2, ![1, 11008]⟩ : Shape).Idx → EReal)
    (hx : ∀ i, ∃ r : ℝ, x i = (r : EReal)) (hxh : ∀ i, xh i = x i) (hxl : ∀ i, xl i = x i - x i)
    (hsc : ∀ n : Fin 11008, sc (ix2 (0 : Fin 1) n) = s (ix1 n)) (hbi : ∀ n : Fin 11008, bi (ix2 (0 : Fin 1) n) = b (ix1 n)) :
    tiled xh xl w sc bi = linear x w s b := by
  funext j
  have hl : ∀ i, xl i = 0 := fun i => (hxl i).trans (real_sub_self _ (hx i))
  unfold tiled linear
  simp only [hxh, hl, zero_mul, Finset.sum_const_zero, add_zero]
  rw [hsc (j 1), hbi (j 1)]

end Cert.Spec

end
-- ==== Proof.LibRows.lean ====
/-
  Two facts about one-row arrays, over literal lengths.

  A vector of length K reshaped to a 1 × K array holds, at column k of its one row, the vector's entry k; and a
  splat of the zero word holds the real number zero at every index.
-/
import Idealize.ShloMosaic.PureOps.Ideal
import Idealize.ShloMosaic.PureOps.Ideal.Laws
import Idealize.ShloMosaic.Lib.Pipeline.Value
import Idealize.ShloMosaic.Lib.ValueIdx

noncomputable section

namespace Cert.LibRows

open Idealize.ShloMosaic Idealize.ShloMosaic.ValueIdx

/-- A vector reshaped to one row, read in that row: entry `k` of the vector. -/
theorem row_apply {K : Nat} (v : FVec Ideal ⟨1, ![K]⟩ .f32) (h : (⟨1, ![K]⟩ : Shape).ShapeCasts ⟨2, ![1, K]⟩) (k : Fin K) :
    shapeCast (⟨2, ![1, K]⟩ : Shape) v h (ix2 (0 : Fin 1) k) = v (ix1 k) := by
  refine (shapeCast_addUnit_apply ![K] v h (ix2 (0 : Fin 1) k)).trans (congrArg v ?_)
  funext a; match a with | ⟨0, _⟩ => rfl

/-- A splat of the zero word over a vector's shape, read anywhere: the real number zero. -/
theorem zeros_apply {K : Nat} (h : (⟨0, ![]⟩ : Shape).BroadcastsInDim ⟨1, ![K]⟩ ![]) (j : (⟨1, ![K]⟩ : Shape).Idx) :
    broadcastInDim (⟨1, ![K]⟩ : Shape) ![] h (constant (F := Ideal) ⟨0, ![]⟩ .f32 0x00000000#32) j = 0 := by
  rw [broadcastInDim_apply ![] h _ j ix0 (fun a => a.elim0)]
  exact Ideal.ofBits_zero_f32

/-- The zero vector reshaped to one row is zero in every column. -/
theorem zero_row_apply {K : Nat} (hb : (⟨0, ![]⟩ : Shape).BroadcastsInDim ⟨1, ![K]⟩ ![])
    (h : (⟨1, ![K]⟩ : Shape).ShapeCasts ⟨2, ![1, K]⟩) (k : Fin K) :
    shapeCast (⟨2, ![1, K]⟩ : Shape) (broadcastInDim (⟨1, ![K]⟩ : Shape) ![] hb (constant (F := Ideal) ⟨0, ![]⟩ .f32 0x00000000#32)) h
      (ix2 (0 : Fin 1) k) = 0 := by
  rw [row_apply]; exact zeros_apply hb _

end Cert.LibRows

end
-- ==== Proof.KValue.lean ====
/-
  What the idealized kernel leaves in its result array.

  Step `t` writes back columns 512·t … of the result: all 512 of its buffer's columns for t < 21, the first 256 at
  t = 21, where the array ends. Column q of what it writes is computed from row q of the weight tile — row
  512·t + q of the weight array — and column q of the scale and bias tiles — column 512·t + q of the one-row scale
  and bias arrays — and from all of both activation arrays. So what step `t` writes back is block `t` of ONE function
  of the whole arrays (`kernelOut`), the 22 blocks cover the result array, and the array ends holding that function.

  The arrays the kernel reads are prepared on the host from the arguments: the high part of the activations is the
  activations themselves (a change of float format is the identity), the residual part is the activations minus
  themselves, and the scale and bias are reshaped to one row.
-/
import proofs.«107610_j5875515261093_2_alg».proof.Proof.KRun
import proofs.«107610_j5875515261093_2_alg».proof.Proof.SpecAlg
import proofs.«107610_j5875515261093_2_alg».proof.Proof.LibRows
import Idealize.ShloMosaic.Lib.Pipeline.Value
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Idealize.ShloMosaic.ValueIdx

variable (m : (ℓ : Loc nD τ sig) → Buf (Elt Ideal) ℓ) (ρ : Dev nD → PrngReg)

/-! ## The blocks' places in their arrays, decided over the grid -/

/-- Step `t`: the activation windows sit at the origin; the weight window at row-block `t`; the scale, bias and result
    windows at column-block `t`; the result's block has all 256 rows and ends at column 512·t + 512 or at the array's
    last column, whichever comes first. -/
theorem idx_facts : ∀ t : Fin cfg0.N,
    win0_0.index t (0 : Fin 2) = 0 ∧ win0_0.index t (1 : Fin 2) = 0
      ∧ win0_1.index t (0 : Fin 2) = 0 ∧ win0_1.index t (1 : Fin 2) = 0
      ∧ win0_2.index t (0 : Fin 2) = t.val ∧ win0_2.index t (1 : Fin 2) = 0
      ∧ win0_3.index t (0 : Fin 2) = 0 ∧ win0_3.index t (1 : Fin 2) = t.val
      ∧ win0_4.index t (0 : Fin 2) = 0 ∧ win0_4.index t (1 : Fin 2) = t.val
      ∧ win0_5.index t (0 : Fin 2) = 0 ∧ win0_5.index t (1 : Fin 2) = t.val
      ∧ win0_5.xsize (grid0.coords t) 0 = 256
      ∧ (win0_5.xsize (grid0.coords t) 1 = 512 ∨ t.val * 512 + win0_5.xsize (grid0.coords t) 1 = 11008)
      ∧ t.val * 512 + win0_5.xsize (grid0.coords t) 1 ≤ 11008 :=
  (by decide +kernel : ∀ t : Fin grid0.N,
    win0_0.index t (0 : Fin 2) = 0 ∧ win0_0.index t (1 : Fin 2) = 0
      ∧ win0_1.index t (0 : Fin 2) = 0 ∧ win0_1.index t (1 : Fin 2) = 0
      ∧ win0_2.index t (0 : Fin 2) = t.val ∧ win0_2.index t (1 : Fin 2) = 0
      ∧ win0_3.index t (0 : Fin 2) = 0 ∧ win0_3.index t (1 : Fin 2) = t.val
      ∧ win0_4.index t (0 : Fin 2) = 0 ∧ win0_4.index t (1 : Fin 2) = t.val
      ∧ win0_5.index t (0 : Fin 2) = 0 ∧ win0_5.index t (1 : Fin 2) = t.val
      ∧ win0_5.xsize (grid0.coords t) 0 = 256
      ∧ (win0_5.xsize (grid0.coords t) 1 = 512 ∨ t.val * 512 + win0_5.xsize (grid0.coords t) 1 = 11008)
      ∧ t.val * 512 + win0_5.xsize (grid0.coords t) 1 ≤ 11008)

/-! ## Each buffer's entry is an entry of its array -/

/-- The high-part buffer at (p, k) is the high-part array at (p, k); -/
theorem xh_at (c : Dev nD) (t : Fin cfg0.N) (p : Fin 256) (k : Fin 4096) :
    (iblk m c 0 t : S256x4096.Idx → EReal) (ix2 p k) = (V m c main_v0 : S256x4096.Idx → EReal) (ix2 p k) := by
  obtain ⟨i00, i01, -⟩ := idx_facts t
  show (V m c main_v0 : S256x4096.Idx → EReal) (((cfg0.win 0).blk t).view.emb (ix2 p k)) = _
  refine congrArg _ (funext fun a => Fin.ext ?_)
  match a with
  | ⟨0, _⟩ => show win0_0.index t (0 : Fin 2) * 256 + 1 * p.val = p.val; rw [i00]; omega
  | ⟨1, _⟩ => show win0_0.index t (1 : Fin 2) * 4096 + 1 * k.val = k.val; rw [i01]; omega
/-- the residual-part buffer likewise. -/
theorem xl_at (c : Dev nD) (t : Fin cfg0.N) (p : Fin 256) (k : Fin 4096) :
    (iblk m c 1 t : S256x4096.Idx → EReal) (ix2 p k) = (V m c main_v3 : S256x4096.Idx → EReal) (ix2 p k) := by
  obtain ⟨-, -, i10, i11, -⟩ := idx_facts t
  show (V m c main_v3 : S256x4096.Idx → EReal) (((cfg0.win 1).blk t).view.emb (ix2 p k)) = _
  refine congrArg _ (funext fun a => Fin.ext ?_)
  match a with
  | ⟨0, _⟩ => show win0_1.index t (0 : Fin 2) * 256 + 1 * p.val = p.val; rw [i10]; omega
  | ⟨1, _⟩ => show win0_1.index t (1 : Fin 2) * 4096 + 1 * k.val = k.val; rw [i11]; omega

set_option maxHeartbeats 2000000 in
/-- Row q of the weight tile at step `t`, for q below the number of rows left in the array, is row 512·t + q of the
    weight array. -/
theorem wt_at (c : Dev nD) (t : Fin cfg0.N) (q : Fin 512) (k : Fin 4096) (hq : q.val < win0_5.xsize (grid0.coords t) 1)
    (n : Fin 11008) (hn : n.val = t.val * 512 + q.val) :
    wblk m c t (ix2 q k) = (V m c main_arg1 : S11008x4096.Idx → BitVec 32) (ix2 n k) := by
  obtain ⟨h20, h21, -⟩ := xsize_facts t
  obtain ⟨-, -, -, -, i20, i21, -⟩ := idx_facts t
  let y : (win0_2.xblock (grid0.coords t)).Idx := fun a => match a with
    | ⟨0, _⟩ => ⟨q.val, by show q.val < win0_2.xsize (grid0.coords t) 0; rw [h20]; exact hq⟩
    | ⟨1, _⟩ => ⟨k.val, by show k.val < win0_2.xsize (grid0.coords t) 1; rw [h21]; exact k.isLt⟩
  have hy : (ix2 q k : S512x4096.Idx) = win0_2.xinj (grid0.coords t) y := by
    funext a; apply Fin.ext
    match a with
    | ⟨0, _⟩ => rfl
    | ⟨1, _⟩ => rfl
  unfold wblk
  rw [hy, Window.fill_xinj]
  show (V m c main_arg1 : S11008x4096.Idx → BitVec 32) (((cfg0.win 2).blk t).view.emb y) = _
  refine congrArg _ (funext fun a => Fin.ext ?_)
  match a with
  | ⟨0, _⟩ => show win0_2.index t (0 : Fin 2) * 512 + 1 * q.val = n.val; rw [i20]; omega
  | ⟨1, _⟩ => show win0_2.index t (1 : Fin 2) * 4096 + 1 * k.val = k.val; rw [i21]; omega

set_option maxHeartbeats 2000000 in
/-- Column q of the scale tile is column 512·t + q of the one-row scale array; -/
theorem sc_at (c : Dev nD) (t : Fin cfg0.N) (q : Fin 512) (hq : q.val < win0_5.xsize (grid0.coords t) 1)
    (n : Fin 11008) (hn : n.val = t.val * 512 + q.val) :
    sblk m c t (ix2 (0 : Fin 1) q) = (V m c main_v4 : S1x11008.Idx → EReal) (ix2 (0 : Fin 1) n) := by
  obtain ⟨-, -, h30, h31, -⟩ := xsize_facts t
  obtain ⟨-, -, -, -, -, -, i30, i31, -⟩ := idx_facts t
  let y : (win0_3.xblock (grid0.coords t)).Idx := fun a => match a with
    | ⟨0, _⟩ => ⟨0, by show 0 < win0_3.xsize (grid0.coords t) 0; rw [h30]; exact Nat.one_pos⟩
    | ⟨1, _⟩ => ⟨q.val, by show q.val < win0_3.xsize (grid0.coords t) 1; rw [h31]; exact hq⟩
  have hy : (ix2 (0 : Fin 1) q : S1x512.Idx) = win0_3.xinj (grid0.coords t) y := by
    funext a; apply Fin.ext
    match a with
    | ⟨0, _⟩ => rfl
    | ⟨1, _⟩ => rfl
  unfold sblk
  rw [hy, Window.fill_xinj]
  show (V m c main_v4 : S1x11008.Idx → EReal) (((cfg0.win 3).blk t).view.emb y) = _
  refine congrArg _ (funext fun a => Fin.ext ?_)
  match a with
  | ⟨0, _⟩ => show win0_3.index t (0 : Fin 2) * 1 + 1 * 0 = 0; rw [i30]
  | ⟨1, _⟩ => show win0_3.index t (1 : Fin 2) * 512 + 1 * q.val = n.val; rw [i31]; omega
set_option maxHeartbeats 2000000 in
/-- and of the bias tile, of the one-row bias array. -/
theorem bi_at (c : Dev nD) (t : Fin cfg0.N) (q : Fin 512) (hq : q.val < win0_5.xsize (grid0.coords t) 1)
    (n : Fin 11008) (hn : n.val = t.val * 512 + q.val) :
    bblk m c t (ix2 (0 : Fin 1) q) = (V m c main_v5 : S1x11008.Idx → EReal) (ix2 (0 : Fin 1) n) := by
  obtain ⟨-, -, -, -, h40, h41⟩ := xsize_facts t
  obtain ⟨-, -, -, -, -, -, -, -, i40, i41, -⟩ := idx_facts t
  let y : (win0_4.xblock (grid0.coords t)).Idx := fun a => match a with
    | ⟨0, _⟩ => ⟨0, by show 0 < win0_4.xsize (grid0.coords t) 0; rw [h40]; exact Nat.one_pos⟩
    | ⟨1, _⟩ => ⟨q.val, by show q.val < win0_4.xsize (grid0.coords t) 1; rw [h41]; exact hq⟩
  have hy : (ix2 (0 : Fin 1) q : S1x512.Idx) = win0_4.xinj (grid0.coords t) y := by
    funext a; apply Fin.ext
    match a with
    | ⟨0, _⟩ => rfl
    | ⟨1, _⟩ => rfl
  unfold bblk
  rw [hy, Window.fill_xinj]
  show (V m c main_v5 : S1x11008.Idx → EReal) (((cfg0.win 4).blk t).view.emb y) = _
  refine congrArg _ (funext fun a => Fin.ext ?_)
  match a with
  | ⟨0, _⟩ => show win0_4.index t (0 : Fin 2) * 1 + 1 * 0 = 0; rw [i40]
  | ⟨1, _⟩ => show win0_4.index t (1 : Fin 2) * 512 + 1 * q.val = n.val; rw [i41]; omega

/-! ## What each step writes back, and the array at the end -/

/-- The kernel's result as one function of the arrays the region finds. -/
def kernelOut (c : Dev nD) : S256x11008.Idx → EReal :=
  Cert.Spec.tiled (V m c main_v0) (V m c main_v3) (V m c main_arg1) (V m c main_v4) (V m c main_v5)

set_option maxHeartbeats 2000000 in
/-- What step `t` writes back is block `t` of `kernelOut`. -/
theorem flushed_eq (c : Dev nD) (t : Fin cfg0.N) :
    (dats m 0 c).flushed 5 t = ((cfg0.win 5).blk t).view.read (Elt Ideal) (kernelOut m c) := by
  show (cfg0.win 5).cut (grid0.coords t) ((dats m 0 c).after 5 t) = _
  rw [after0_5]
  funext j
  show stepOut (F := Ideal) _ _ _ _ _ (win0_5.xinj (grid0.coords t) j) = kernelOut m c (((cfg0.win 5).blk t).view.emb j)
  rw [stepOut_eq]
  obtain ⟨p, q, hpq, hq, hp0, hq1⟩ : ∃ (p : Fin 256) (q : Fin 512), (win0_5.xinj (grid0.coords t) j : S256x512.Idx) = ix2 p q
      ∧ q.val < win0_5.xsize (grid0.coords t) 1 ∧ p.val = (j 0).val ∧ q.val = (j 1).val :=
    ⟨_, _, eq_ix2 (win0_5.xinj (grid0.coords t) j : S256x512.Idx), (j 1).isLt, rfl, rfl⟩
  rw [hpq, pay_apply]
  obtain ⟨-, -, -, -, -, -, -, -, -, -, i50, i51, -, -, hle⟩ := idx_facts t
  have hi0 : (((cfg0.win 5).blk t).view.emb j (0 : Fin 2)).val = p.val := by
    show win0_5.index t (0 : Fin 2) * 256 + 1 * (j 0).val = p.val; rw [i50]; omega
  have hi1 : (((cfg0.win 5).blk t).view.emb j (1 : Fin 2)).val = t.val * 512 + q.val := by
    show win0_5.index t (1 : Fin 2) * 512 + 1 * (j 1).val = t.val * 512 + q.val; rw [i51]; omega
  obtain ⟨n, hn, hemb⟩ : ∃ n : Fin 11008, n.val = t.val * 512 + q.val ∧ (((cfg0.win 5).blk t).view.emb j : S256x11008.Idx) = ix2 p n :=
    ⟨⟨t.val * 512 + q.val, by omega⟩, rfl, by
      funext a; apply Fin.ext
      match a with
      | ⟨0, _⟩ => exact hi0
      | ⟨1, _⟩ => exact hi1⟩
  rw [hemb]
  simp only [xh_at m c t, xl_at m c t, wt_at m c t q _ hq n hn, sc_at m c t q hq n hn, bi_at m c t q hq n hn]
  rfl

/-- An index of the result array is in step `t`'s block iff each coordinate is in the block's range. -/
theorem mem_blk (t : Fin cfg0.N) (i : S256x11008.Idx) :
    i ∈ ((cfg0.win 5).blk t).view.set ↔ ∀ a : Fin 2, win0_5.index t a * S256x512.size a ≤ (i a).val
      ∧ (i a).val < win0_5.index t a * S256x512.size a + win0_5.xsize (grid0.coords t) a := by
  show i ∈ ((View.whole main_v6).slice (win0_5.rect t)).set ↔ _
  rw [View.set_slice_whole, Rect.mem_set_unit]
  exact Iff.rfl

/-- Every index of the result array is in some step's block: column n is in tile n / 512. -/
theorem cover (i : S256x11008.Idx) : ∃ t : Fin cfg0.N, (cfg0.win 5).flush t = true ∧ i ∈ ((cfg0.win 5).blk t).view.set := by
  have hi0 : (i 0).val < 256 := (i 0).isLt
  have hi1 : (i 1).val < 11008 := (i 1).isLt
  let t : Fin cfg0.N := ⟨(i 1).val / 512, by show (i 1).val / 512 < 22; omega⟩
  have ht : t.val = (i 1).val / 512 := rfl
  obtain ⟨-, -, -, -, -, -, -, -, -, -, i50, i51, x50, x51, -⟩ := idx_facts t
  refine ⟨t, flush0_5 t, (mem_blk t i).mpr fun a => ?_⟩
  match a with
  | ⟨0, _⟩ =>
    show win0_5.index t (0 : Fin 2) * 256 ≤ (i 0).val ∧ (i 0).val < win0_5.index t (0 : Fin 2) * 256 + win0_5.xsize (grid0.coords t) 0
    rw [i50, x50]; omega
  | ⟨1, _⟩ =>
    show win0_5.index t (1 : Fin 2) * 512 ≤ (i 1).val ∧ (i 1).val < win0_5.index t (1 : Fin 2) * 512 + win0_5.xsize (grid0.coords t) 1
    rw [i51]
    rcases x51 with h | h <;> omega

/-- The result array after the run is `kernelOut`. -/
theorem final (c : Dev nD) : (dats m 0 c).arrAt 5 cfg0.N = kernelOut m c :=
  (dats m 0 c).arrAt_eq_of_cover 5 (kernelOut m c) (fun t _ => flushed_eq m c t) cover

end Cert.KernelIdeal.Hand

end
-- ==== Proof.KHost.lean ====
/-
  The arrays the host hands the kernel, and the kernel's result as a function of the ARGUMENTS.

  Before the grid runs, the host forms from the activations `x` a high part (`x` with its float format changed: the
  same number, exactly) and a residual part (`x` minus the high part, format changed again: `x − x`), and reshapes
  the scale and the bias vectors to one row. Reading these four arrays at an index and substituting into the kernel's
  whole-array function gives the plain scaled, biased linear map of the arguments — as soon as every activation is a
  real number, so that `x − x` is zero.
-/
import proofs.«107610_j5875515261093_2_alg».proof.Proof.KValue

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Idealize.ShloMosaic.ValueIdx

variable (m : (ℓ : Loc nD τ sig) → Buf (Elt Ideal) ℓ) (ρ : Dev nD → PrngReg)

/-! ## The arrays, typed as functions of an index -/

/-- The four arguments on core `c`: activations, weights, scale, bias; -/
abbrev argX (c : Dev nD) : S256x4096.Idx → EReal := m ((c : Thread nD τ).loc main_arg0)
abbrev argW (c : Dev nD) : S11008x4096.Idx → BitVec 32 := m ((c : Thread nD τ).loc main_arg1)
abbrev argS (c : Dev nD) : S11008.Idx → EReal := m ((c : Thread nD τ).loc main_arg2)
abbrev argB (c : Dev nD) : S11008.Idx → EReal := m ((c : Thread nD τ).loc main_arg3)
/-- and the four arrays the host prepares from them: the high part, the residual part, the scale row, the bias row. -/
abbrev hiArr (c : Dev nD) : S256x4096.Idx → EReal := V m c main_v0
abbrev loArr (c : Dev nD) : S256x4096.Idx → EReal := V m c main_v3
abbrev scArr (c : Dev nD) : S1x11008.Idx → EReal := V m c main_v4
abbrev biArr (c : Dev nD) : S1x11008.Idx → EReal := V m c main_v5

/-- The high part is the activations. -/
theorem hi_apply (c : Dev nD) (i : S256x4096.Idx) : hiArr m c i = argX m c i := by
  have e : hiArr m c = truncf (F := Ideal) (s := S256x4096) (φ := .f32) .bf16 (argX m c) bitsLt_bf16_f32 := by
    dsimp only [hiArr, argX, V, hostOps0]; after_results; try rfl
  rw [e]; rfl

/-- The residual part is the activations minus themselves. -/
theorem lo_apply (c : Dev nD) (i : S256x4096.Idx) : loArr m c i = argX m c i - argX m c i := by
  have e : loArr m c = truncf (F := Ideal) (s := S256x4096) (φ := .f32) .bf16 (subf (F := Ideal) (s := S256x4096) (φ := .f32) (argX m c)
      (extf (F := Ideal) (s := S256x4096) (φ := .bf16) .f32 (truncf (F := Ideal) (s := S256x4096) (φ := .f32) .bf16 (argX m c) bitsLt_bf16_f32) bitsLt_bf16_f32)) bitsLt_bf16_f32 := by
    dsimp only [loArr, argX, V, hostOps0]; after_results; try rfl
  rw [e]; rfl

/-- The one-row scale array at column n is the scale vector's entry n; -/
theorem scale_apply (c : Dev nD) (n : Fin 11008) : scArr m c (ix2 (0 : Fin 1) n) = argS m c (ix1 n) := by
  have e : scArr m c = shapeCast S1x11008 (argS m c) shapeCasts_S11008_S1x11008 := by
    dsimp only [scArr, argS, V, hostOps0]; after_results; rfl
  rw [e]
  exact Cert.LibRows.row_apply (K := 11008) (argS m c) shapeCasts_S11008_S1x11008 n
/-- the one-row bias array likewise. -/
theorem bias_apply (c : Dev nD) (n : Fin 11008) : biArr m c (ix2 (0 : Fin 1) n) = argB m c (ix1 n) := by
  have e : biArr m c = shapeCast S1x11008 (argB m c) shapeCasts_S11008_S1x11008 := by
    dsimp only [biArr, argB, V, hostOps0]; after_results; rfl
  rw [e]
  exact Cert.LibRows.row_apply (K := 11008) (argB m c) shapeCasts_S11008_S1x11008 n

/-- With real activations the kernel's result is the plain scaled, biased linear map of the four arguments. -/
theorem kernelOut_eq (c : Dev nD) (hx : ∀ i, ∃ r : ℝ, argX m c i = (r : EReal)) :
    kernelOut m c = Cert.Spec.linear (argX m c) (argW m c) (argS m c) (argB m c) := by
  have hw : (V m c main_arg1 : Buf (Elt Ideal) ((c : Thread nD τ).loc main_arg1)) = argW m c := V_main_arg1 m c
  unfold kernelOut
  rw [hw]
  exact Cert.Spec.tiled_eq_linear (argX m c) (hiArr m c) (loArr m c) (argW m c) (argS m c) (argB m c) (scArr m c) (biArr m c)
    hx (hi_apply m c) (lo_apply m c) (scale_apply m c) (bias_apply m c)

/-- The idealized kernel's run with its result named: from any memory with zero counters and real activations, every
    weakly fair execution terminates with the result array at the linear map of the arguments, the arguments unchanged. -/
theorem run_value (hx : ∀ (c : Dev nD) i, ∃ r : ℝ, argX m c i = (r : EReal)) :
    θ_run defs (onTc (τ := τ) (main (F := Ideal))) ⟨m, fun _ => 0, ρ⟩ (fun r => ∀ c : Dev nD,
      r.2.mem ((c.tc : Thread nD τ).loc main_v6) = Cert.Spec.linear (argX m c) (argW m c) (argS m c) (argB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(((h c).1 5).trans (final m c)).trans (kernelOut_eq m c (hx c)),
      ((h c).2 main_arg0 (Pipeline.mem_restRefs_of main_arg0 (by decide) (by decide))).trans (V_main_arg0 m c),
      ((h c).1 2).trans (((dats m 0 c).arrAt_in 2 rfl _).trans ((A_eq m c 2).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) (run_main m ρ)

end Cert.KernelIdeal.Hand

end
-- ==== Proof.BBody.lean ====
/-
  One grid step of the kernel, as a statement about its six staging buffers.

  The step reads the two activation buffers (the high part `xh` and the residual part `xl` of the activations,
  256 rows of 4096 features), one tile `wt` of 512 weight rows, and the matching 512 scales `sc` and biases `bi`,
  and overwrites the whole 256 × 512 result buffer with

      (xh · wtᵀ + xl · wtᵀ) ⊙ sc + bi

  (the two products accumulated from zero, the scale and the bias broadcast down the rows). Nothing else is
  written: the five input buffers are left as found, and what the result buffer held before is irrelevant.
  The statement holds at every reading of the float operations, so it serves both the word-level program and
  its idealization.
-/
import proofs.«107610_j5875515261093_2_alg».proof.Proof.Gen.Kernel.Frame
import proofs.«107610_j5875515261093_2_alg».proof.Proof.Gen.Kernel.Skeleton
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The rectangles the step reads and writes through: each is its whole buffer -/

abbrev rW : Rect S512x4096 := Rect.unit (s := S512x4096) ![0, 0] S512x4096.size inb_S512x4096_S512x4096_0_0
abbrev rX : Rect S256x4096 := Rect.unit (s := S256x4096) ![0, 0] S256x4096.size inb_S256x4096_S256x4096_0_0
abbrev rV : Rect S1x512 := Rect.unit (s := S1x512) ![0, 0] S1x512.size inb_S1x512_S1x512_0_0
abbrev rO : Rect S256x512 := Rect.unit (s := S256x512) ![0, 0] S256x512.size inb_S256x512_S256x512_0_0

/-- What the result buffer holds after the step, from what the five input buffers hold: the one store's value,
    laid over the whole buffer. -/
def stepOut (xh xl : Vec F S256x4096 .bf16) (wt : Vec F S512x4096 .i32) (sc bi : Vec F S1x512 .f32) : Vec F S256x512 .f32 :=
  View.canon [⟨rO, k0_pay1 (View.ld wt rW) (View.ld xh rX) (View.ld xl rX) (View.ld sc rV) (View.ld bi rV)⟩]

/-- The one store covers the result buffer. -/
theorem stepCover (p0 : Vec F S256x512 .f32) (y : S256x512.Idx) :
    ∃ pc ∈ ([⟨rO, p0⟩] : List (View.Piece (Elt F) S256x512 .f32)), y ∈ pc.1.set :=
  View.cover_of_tiled [⟨rO, p0⟩] S256x512.size (by rfl) y

/-- The offsets are all zero: every access is of a whole buffer. -/
theorem off_zero : (![0, 0] : Fin 2 → Nat) = fun _ => 0 := funext fun a => by fin_cases a <;> rfl

/-- So the result is the step's arithmetic applied to the buffers' contents themselves. -/
theorem stepOut_eq (xh xl : Vec F S256x4096 .bf16) (wt : Vec F S512x4096 .i32) (sc bi : Vec F S1x512 .f32) :
    stepOut xh xl wt sc bi = k0_pay1 wt xh xl sc bi := by
  unfold stepOut
  rw [View.canon_unit_zero off_zero]
  simp only [View.ld_unit_zero (S := S512x4096) off_zero, View.ld_unit_zero (S := S256x4096) off_zero,
    View.ld_unit_zero (S := S1x512) off_zero]

/-! ## The step's triple -/

set_option maxHeartbeats 2000000 in
/-- The step on whole staging memrefs: the five inputs' at contents `xh xl wt sc bi`, the result's at anything,
    run to the continuation holding the inputs' as they were and the result's at `stepOut` of them. -/
theorem sound_kernel (c : Dev nD) (E : Set ℕ) (i : grid0.Coords)
    (arg1 : Memref sig .tc .vmem S256x4096 .bf16) (harg1 : arg1.IsWhole) (arg2 : Memref sig .tc .vmem S256x4096 .bf16) (harg2 : arg2.IsWhole)
    (arg3 : Memref sig .tc .vmem S512x4096 .i32) (harg3 : arg3.IsWhole) (arg4 : Memref sig .tc .vmem S1x512 .f32) (harg4 : arg4.IsWhole)
    (arg5 : Memref sig .tc .vmem S1x512 .f32) (harg5 : arg5.IsWhole) (arg6 : Memref sig .tc .vmem S256x512 .f32) (harg6 : arg6.IsWhole)
    (xh xl : Vec F S256x4096 .bf16) (wt : Vec F S512x4096 .i32) (sc bi : Vec F S1x512 .f32) (K : PUnit → sProp 𝕄) :
    iprop(owns (c : Thread nD τ) arg1 fullShare xh ∗ owns (c : Thread nD τ) arg2 fullShare xl ∗ owns (c : Thread nD τ) arg3 fullShare wt
        ∗ owns (c : Thread nD τ) arg4 fullShare sc ∗ owns (c : Thread nD τ) arg5 fullShare bi ∗ (∃ d, owns (c : Thread nD τ) arg6 fullShare d)
        ∗ (iprop(owns (c : Thread nD τ) arg1 fullShare xh ∗ owns (c : Thread nD τ) arg2 fullShare xl ∗ owns (c : Thread nD τ) arg3 fullShare wt
            ∗ owns (c : Thread nD τ) arg4 fullShare sc ∗ owns (c : Thread nD τ) arg5 fullShare bi
            ∗ owns (c : Thread nD τ) arg6 fullShare (stepOut xh xl wt sc bi)) -∗ K ⟨⟩))
      ⊢ wp frame (wpE (defs₀ (F := F)) Variants.none c none) E (cc0__kernel i arg1 harg1 arg2 harg2 arg3 harg3 arg4 harg4 arg5 harg5 arg6 harg6) K := by
  simp only [cc0__kernel_eq_skeleton]; unfold cc0__kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (stepCover _)

end Cert.Kernel.Hand

end
-- ==== Proof.BData.lean ====
/-
  The 22 grid steps of the word-level kernel, put together.

  Step `t` works on output columns 512·t … 512·t + 511. It finds the two activation buffers holding all 256 × 4096
  activations (fetched once), and the weight, scale and bias buffers holding tile `t` of their arrays. The last tile
  overhangs: the arrays have 11008 = 21·512 + 256 channels, so at step 21 only the first 256 rows of the weight
  buffer and the first 256 columns of the scale and bias buffers come from the arrays; the rest is whatever the
  buffers happened to hold. The step writes the whole 256 × 512 result buffer, and the write-back copies out only
  the columns that exist in the result array.

  At the word level nothing is claimed about what the result buffer holds (the matrix unit's rounding is not modelled
  entry by entry): this program is only shown to run to the end and to leave its arguments alone, so the proof data's
  value for the result buffer is never consulted.
-/
import proofs.«107610_j5875515261093_2_alg».proof.Proof.BBody
import Idealize.ShloMosaic.Lib.Pipeline.Frame
import Idealize.ShloMosaic.Lib.ValueIdx
import Idealize.ShloMosaic.Lib.Pipeline.FrameBody
import Idealize.ShloMosaic.Lib.Pipeline.Kit
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-! ## The proof data -/

/-- Tile `t` of the weights as a full 512 × 4096 buffer: the rows inside the array, and the zero word past its end. -/
def wblk (c : Dev nD) (t : Fin cfg0.N) : S512x4096.Idx → Elt F .i32 :=
  win0_2.fill (grid0.coords t) (fun _ => 0#32) (iblk m c 2 t)
/-- Tile `t` of the scales as a full 1 × 512 buffer, likewise; -/
def sblk (c : Dev nD) (t : Fin cfg0.N) : S1x512.Idx → Elt F .f32 :=
  win0_3.fill (grid0.coords t) (fun _ => Scalar.ofBits .f32 0#32) (iblk m c 3 t)
/-- and of the biases. -/
def bblk (c : Dev nD) (t : Fin cfg0.N) : S1x512.Idx → Elt F .f32 :=
  win0_4.fill (grid0.coords t) (fun _ => Scalar.ofBits .f32 0#32) (iblk m c 4 t)

/-- The proof data of the one pipeline on core `c`: the arrays as the region finds them; after step `t` the
    activation buffers at the activations, the tile buffers at their tiles, the result buffer at the step's result of
    those; the invariant is the scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => wblk m c t
    | ⟨3, _⟩ => sblk m c t
    | ⟨4, _⟩ => bblk m c t
    | ⟨5, _⟩ => stepOut (iblk m c 0 t) (iblk m c 1 t) (wblk m c t) (sblk m c t) (bblk m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = wblk m c t := by dsimp only [dats]
theorem after0_3 (c : Dev nD) (t : Fin cfg0.N) : (dats m 0 c).after 3 t = sblk m c t := by dsimp only [dats]
theorem after0_4 (c : Dev nD) (t : Fin cfg0.N) : (dats m 0 c).after 4 t = bblk m c t := by dsimp only [dats]
theorem after0_5 (c : Dev nD) (t : Fin cfg0.N) :
    (dats m 0 c).after 5 t = stepOut (iblk m c 0 t) (iblk m c 1 t) (wblk m c t) (sblk m c t) (bblk m c t) := by dsimp only [dats]

/-! ## What a step finds in each buffer -/

/-- The activation buffers hold the activations at every step (fetched at the first, kept afterwards). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- The tile buffers are fetched at every step: the tile on the part inside the array, `d` past its end. -/
theorem before0_2 (c : Dev nD) (t : Fin cfg0.N) (d) :
    (dats m 0 c).before 2 t d = win0_2.fill (grid0.coords t) d (iblk m c 2 t) := by
  unfold Dat.before; rw [if_pos (fetch0_2 t)]; rfl
theorem before0_3 (c : Dev nD) (t : Fin cfg0.N) (d) :
    (dats m 0 c).before 3 t d = win0_3.fill (grid0.coords t) d (iblk m c 3 t) := by
  unfold Dat.before; rw [if_pos (fetch0_3 t)]; rfl
theorem before0_4 (c : Dev nD) (t : Fin cfg0.N) (d) :
    (dats m 0 c).before 4 t d = win0_4.fill (grid0.coords t) d (iblk m c 4 t) := by
  unfold Dat.before; rw [if_pos (fetch0_4 t)]; rfl

/-- The result buffer is written back after every step, so each step finds it holding anything. -/
theorem before0_5 (c : Dev nD) (t : Fin cfg0.N) (d) : (dats m 0 c).before 5 t d = d :=
  (dats m 0 c).before_out_reset 5 rfl t (by
    by_cases h : t.val = 0
    · exact .inl h
    · exact .inr ⟨h, flush0_5 _⟩) d

/-! ## The parts of the buffers inside the arrays, step by step -/

/-- At every step the weight tile's rows inside the array are as many as the result's columns inside its array, and
    all 4096 features of each; the scale and bias tiles' columns likewise; and the result has all its 256 rows. -/
theorem xsize_facts : ∀ t : Fin cfg0.N,
    win0_2.xsize (grid0.coords t) 0 = win0_5.xsize (grid0.coords t) 1 ∧ win0_2.xsize (grid0.coords t) 1 = 4096
      ∧ win0_3.xsize (grid0.coords t) 0 = 1 ∧ win0_3.xsize (grid0.coords t) 1 = win0_5.xsize (grid0.coords t) 1
      ∧ win0_4.xsize (grid0.coords t) 0 = 1 ∧ win0_4.xsize (grid0.coords t) 1 = win0_5.xsize (grid0.coords t) 1 :=
  (by decide +kernel : ∀ t : Fin grid0.N,
    win0_2.xsize (grid0.coords t) 0 = win0_5.xsize (grid0.coords t) 1 ∧ win0_2.xsize (grid0.coords t) 1 = 4096
      ∧ win0_3.xsize (grid0.coords t) 0 = 1 ∧ win0_3.xsize (grid0.coords t) 1 = win0_5.xsize (grid0.coords t) 1
      ∧ win0_4.xsize (grid0.coords t) 0 = 1 ∧ win0_4.xsize (grid0.coords t) 1 = win0_5.xsize (grid0.coords t) 1)

/-- Two fillings of a buffer agree wherever the fetch wrote. -/
theorem fill_agree {G : Pipeline.Grid} (w : Window sig G) {α : Type} (i : G.Coords) (d d' : w.block.Idx → α)
    (g : (w.xblock i).Idx → α) (j : w.block.Idx) (h : ∀ a, (j a).val < w.xsize i a) : w.fill i d g j = w.fill i d' g j := by
  have hm : w.moved i j = true := (w.moved_iff i j).mpr h
  unfold Window.fill; rw [dif_pos hm, dif_pos hm]

end Cert.Kernel.Hand

end
-- ==== Proof.BRun.lean ====
/-
  The word-level kernel runs to the end and leaves its four argument arrays as they were.

  The grid has 22 steps. Each step is handed the two activation buffers, one tile of the weights, scales and biases,
  and the result buffer, and overwrites the whole result buffer. At the last step the tiles overhang their arrays, so
  part of the weight, scale and bias buffers holds words that no array names; at the word level the product of two
  matrices is not described entry by entry, so nothing can be said about which entries of the result those words
  reach. Nothing needs to be said: the claim here is only about the ARGUMENT arrays, and the result buffer is written
  back to an array that is none of them.

  So the result buffer is FORGOTTEN: a step receives it holding anything and returns it holding anything. For the
  five input buffers the step's obligation is the usual one, and it is met because the step does not write them:
  the activation buffers are returned as found, and each tile buffer is returned holding its tile on the part inside
  the array, which is all that a buffer whose tile may overhang is asked to hold.

  With every step meeting its obligation the whole grid runs. At the end the weight array, which is only ever
  read, holds what it held at the start, and the three arguments that no buffer stages directly (the activations,
  the scales and the biases, each of which reaches the kernel only through an array computed from it beforehand) were
  never touched.
-/
import proofs.«107610_j5875515261093_2_alg».proof.Proof.BData
import Idealize.ShloMosaic.Lib.Pipeline.Frame
import Idealize.ShloMosaic.Lib.Pipeline.Cells
import Idealize.ShloMosaic.Lib.Pipeline.Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-! ## The forgotten buffer -/

/-- Only the result buffer (the sixth) is forgotten. -/
def fgt : Fin cfg0.W → Bool :=
  fun | 0 => false | 1 => false | 2 => false | 3 => false | 4 => false | 5 => true
      | ⟨_ + 6, h⟩ => absurd h (Nat.not_lt.2 (Nat.le_add_left _ _))

theorem fgt_0 : fgt 0 = false := rfl
theorem fgt_1 : fgt 1 = false := rfl
theorem fgt_2 : fgt 2 = false := rfl
theorem fgt_3 : fgt 3 = false := rfl
theorem fgt_4 : fgt 4 = false := rfl
theorem fgt_5 : fgt 5 = true := rfl

/-! ## Every step meets its obligation -/

/-- Handed the activations, the tiles (filled out past the arrays' end with anything) and the result buffer holding
    anything, a step returns the five inputs as the obligation asks and the result buffer holding something. -/
theorem body_obligation (c : Dev nD) :
    BodyObligationLoose (dats (F := F) m 0 c) (defs₀ (F := F)) Variants.none () Set.univ fgt := fun t => by
  rw [bigSep_W0, bigSep_W0]
  simp only [fgt_0, fgt_1, fgt_2, fgt_3, fgt_4, fgt_5]
  rw [show (dats m 0 c).Φ t.succ = (dats m 0 c).Φ t.castSucc from rfl,
    show (dats m 0 c).owesAt () t.succ = (dats m 0 c).owesAt () t.castSucc from rfl]
  change _ ⊢ wp frame (wpE (defs₀ (F := F)) Variants.none c none) Set.univ (bodyAt0 t) _
  unfold bodyAt0
  iintro ⟨HΦ, Ho, ⟨%d0, H0⟩, ⟨%d1, H1⟩, ⟨%d2, H2⟩, ⟨%d3, H3⟩, ⟨%d4, H4⟩, ⟨%d5, H5⟩⟩
  rw [before0_0 m c t d0, before0_1 m c t d1, before0_2 m c t d2, before0_3 m c t d3, before0_4 m c t d4]
  iapply (sound_kernel (F := F) c Set.univ (grid0.coords t) _ _ _ _ _ _ _ _ _ _ _ _ (iblk m c 0 t) (iblk m c 1 t)
    (win0_2.fill (grid0.coords t) d2 (iblk m c 2 t)) (win0_3.fill (grid0.coords t) d3 (iblk m c 3 t))
    (win0_4.fill (grid0.coords t) d4 (iblk m c 4 t)) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · rw [after0_0]; iexact H0
  isplitl [H1]; · rw [after0_1]; iexact H1
  have e2 : win0_2.cut (grid0.coords t) (wblk m c t) = iblk m c 2 t := win0_2.cut_fill _ _ _
  have e3 : win0_3.cut (grid0.coords t) (sblk m c t) = iblk m c 3 t := win0_3.cut_fill _ _ _
  have e4 : win0_4.cut (grid0.coords t) (bblk m c t) = iblk m c 4 t := win0_4.cut_fill _ _ _
  isplitl [H2]
  · iexists d2
    rw [after0_2]
    change _ ⊢ owns (c : Thread nD τ) (stage0_2 (cfg0.slots t 2)) fullShare (win0_2.fill (grid0.coords t) d2 (win0_2.cut (grid0.coords t) (wblk m c t)))
    rw [e2]; try iexact H2
  isplitl [H3]
  · iexists d3
    rw [after0_3]
    change _ ⊢ owns (c : Thread nD τ) (stage0_3 (cfg0.slots t 3)) fullShare (win0_3.fill (grid0.coords t) d3 (win0_3.cut (grid0.coords t) (sblk m c t)))
    rw [e3]; try iexact H3
  isplitl [H4]
  · iexists d4
    rw [after0_4]
    change _ ⊢ owns (c : Thread nD τ) (stage0_4 (cfg0.slots t 4)) fullShare (win0_4.fill (grid0.coords t) d4 (win0_4.cut (grid0.coords t) (bblk m c t)))
    rw [e4]; try iexact H4
  · iexists _; iexact H5

/-! ## The run and the frame -/

set_option backward.isDefEq.respectTransparency.types false in
/-- From any memory with zero counters every weakly fair execution of the kernel terminates; every array that a
    buffer other than the result buffer stages ends at what the proof data computes, and every other buffer as the
    region found it. Of the result's array nothing is said. -/
theorem run_main : θ_run defs (onTc (τ := τ) (main (F := F))) (s₀ m ρ)
    (Pipeline.RDat.FramePost (cfgs 0) (fun c => (dats m 0 c).toRForget fgt) (V m)) :=
  Pipeline.RDat.θ_run_frame cfgs (0 : Fin 1) launch0 defs₀ Variants.none (fun c => (dats m 0 c).toRForget fgt) m ρ main
    (hbody := fun c => (body_obligation m c).toRForget) (hshare := fun c => ((dats m 0 c).toRForget fgt).share_full fun _ => rfl)
    (howed := fun _ _ => rfl) (V := V m) (hmain := hmain m Variants.none) (hA := A_eq m) (hΦ := fun _ _ => rfl)

/-- The kernel runs to the end and leaves its four argument arrays as they were: the weights are staged by a buffer
    that is only read, and the other three are staged by no buffer at all. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans (V_main_arg0 m c),
      (((dats m 0 c).toRForget_arrAt_iff fgt_2 _ _).mp ((h c).1 2)).trans
        (((dats m 0 c).arrAt_in 2 rfl _).trans ((A_eq m c 2).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩)
    (run_main m ρ)

end Cert.Kernel.Hand

end
-- ==== Proof.RefValue.lean ====
/-
  The reference program, read at the exact instance, is the scaled and biased linear map.

  Entry `(i, n)` of the reference's result is built in eight steps: the integer weights are converted to reals, the
  contraction `∑ₖ x[i,k] · w[n,k]` is taken over the 4096 input features, the per-channel scale `s[n]` is
  broadcast along the token rows and multiplied in, and the per-channel bias `b[n]` is broadcast likewise and added.
  Over the extended reals every step is exact, so the composite is

      (∑ₖ x[i,k] · w[n,k]) · s[n] + b[n],

  which is `Cert.Spec.linear`. The only work is to see that the index functions the broadcasts and the contraction
  read through are the coordinate constructors: row `i` and feature `k` on the left, channel `n` and feature `k` on the
  right, and channel `n` alone for the scale and the bias.
-/
import proofs.«107610_j5875515261093_2_alg».proof.Proof.Gen.ReferenceIdeal.Read
import proofs.«107610_j5875515261093_2_alg».proof.Proof.Spec

noncomputable section

namespace Cert.ReferenceIdeal.RefValue

open Cert.ReferenceIdeal Cert.ReferenceIdeal.Gen Cert.ReferenceIdeal.Read
open Idealize.ShloMosaic Idealize.ShloMosaic.ValueIdx

/-- The contraction reads the activations at row `i 0`, feature `k`. -/
theorem lidx_eq (i : S256x11008.Idx) (k : Fin 4096) : lidx_main_v1 i k = ix2 (i 0) k :=
  funext fun a => Fin.ext (by match a with | ⟨0, _⟩ => rfl | ⟨1, _⟩ => rfl)

/-- The contraction reads the weights at channel `i 1`, feature `k`. -/
theorem ridx_eq (i : S256x11008.Idx) (k : Fin 4096) : ridx_main_v1 i k = ix2 (i 1) k :=
  funext fun a => Fin.ext (by match a with | ⟨0, _⟩ => rfl | ⟨1, _⟩ => rfl)

/-- The two broadcasts of the scale, composed, read it at channel `i 1`. -/
theorem sidx_eq (i : S256x11008.Idx) : idx_main_v2 (idx_main_v3 i) = ix1 (i 1) :=
  funext fun a => Fin.ext (by match a with | ⟨0, _⟩ => rfl)

/-- The two broadcasts of the bias, composed, read it at channel `i 1`. -/
theorem bidx_eq (i : S256x11008.Idx) : idx_main_v5 (idx_main_v6 i) = ix1 (i 1) :=
  funext fun a => Fin.ext (by match a with | ⟨0, _⟩ => rfl)

/-- Over the extended reals the reference's result is `(∑ₖ x[i,k]·w[n,k])·s[n] + b[n]` at every entry `(i, n)`. -/
theorem ref_eq (x : (⟨S256x4096, .f32⟩ : BufTy).Contents (Elt Ideal)) (w : (⟨S11008x4096, .i32⟩ : BufTy).Contents (Elt Ideal))
    (s b : (⟨S11008, .f32⟩ : BufTy).Contents (Elt Ideal)) :
    Cert.ReferenceIdeal.Read.val_main_v7 (F := Ideal) x w s b = Cert.Spec.linear x w s b := by
  funext i
  rw [val_main_v7_apply, val_main_v4_apply, val_main_v1_apply, val_main_v3_apply, val_main_v2_apply, val_main_v6_apply,
    val_main_v5_apply]
  simp only [val_main_v0_apply, lidx_eq, ridx_eq, sidx_eq, bidx_eq, Ideal.mulf_def, Ideal.addf_def]
  rfl

end Cert.ReferenceIdeal.RefValue

end
-- ==== Proof.Finite.lean ====
/-
  A finite activation array has only real entries.

  The precondition says three things at once: every activation satisfies `|x| < +∞`, every scale does, and every bias
  does. Each of the three is an `and` over all the entries of a comparison against the pattern of `+∞`, and the three
  are joined by two further `and`s; the whole is required to be `true`.

  Only the first conjunct is used here. An `and` of bits is 1 exactly when both bits are, so the first conjunct is 1;
  an `and` over all entries is 1 only when every entry is, so `|x i| < +∞` holds at each index `i`. Over the
  extended reals `|v|` is `max v (-v)`, which is `+∞` at both `-∞` and `+∞`; so neither infinity passes the
  comparison and the entry is a real number.
-/
import proofs.«107610_j5875515261093_2_alg».proof.Pre_finite_inputs
import proofs.«107610_j5875515261093_2_alg».proof.Proof.Gen.Pre_finite_inputs
import Idealize.ShloMosaic.Lib.ReduceAll
import Idealize.ShloMosaic.Lib.ValueIdx
import Idealize.ShloMosaic.PureOps.Ideal

noncomputable section

namespace Cert.Finite

open Idealize.ShloMosaic Cert.Pre_finite_inputs

/-- A rank-0 array has exactly one index. -/
instance subsingleton_scalarIdx : Subsingleton S_.Idx := ⟨fun a b => funext fun d => d.elim0⟩

/-- The bit pattern `0x7F800000` denotes `+∞`. -/
theorem top_eq : Ideal.ofBits .f32 0x7F800000#32 = (⊤ : EReal) := by simp [Ideal.ofBits, Ideal.ieee]

/-- Under the precondition every entry of the activations is a real number. -/
theorem x_real [Cert.Pre_finite_inputs.Facts] (x : FVec Ideal S256x4096 .f32) (w : IVec S11008x4096 32)
    (s b : FVec Ideal S11008 .f32) (h : Cert.Pre_finite_inputs.fn (F := Ideal) x w s b = fun _ => 1#1) :
    ∀ i, ∃ r : ℝ, x i = (r : EReal) := by
  intro i
  -- the predicate's one bit, with its three conjuncts in view
  have h0 := congrFun h ValueIdx.ix0
  dsimp only [Cert.Pre_finite_inputs.fn] at h0
  -- the first conjunct of the first conjunction: all activations pass the comparison
  have h1 := (IntOp.andi_eq_one.1 h0).1
  have h2 := (IntOp.andi_eq_one.1 h1).1
  -- so the activation at `i` does
  have h3 := Host.reduce_andi_all _ _ _ _ _ h2 i
  have h4 : Ideal.cmp .olt (max (x i) (-(x i))) (Ideal.ofBits .f32 0x7F800000#32) = 1#1 := h3
  rw [top_eq] at h4
  -- `max v (-v) < ⊤` fails at both infinities
  generalize x i = v at h4 ⊢
  induction v using EReal.rec with
  | bot => simp [Ideal.cmp] at h4
  | coe r => exact ⟨r, rfl⟩
  | top => simp [Ideal.cmp] at h4

end Cert.Finite

end
-- ==== Proof.lean ====
/-
  The certificate: a tiled, bf16-split linear layer against its plain reference.

  The kernel computes, for activations `x` (256 × 4096), integer weights `w` (11008 × 4096), a scale `s` and a bias `b`
  (11008 each), the array  out[i, n] = (∑ₖ x[i,k]·w[n,k])·s[n] + b[n],  in 22 grid steps of 512 output channels each
  (the last one half empty), and it does so by splitting `x` into a high and a residual part and adding two matrix
  products. The reference computes the same array in one host product.

  Over the extended reals, with every float operation exact, the high part is `x` and the residual is `x − x`, which
  is zero because the precondition makes every activation a real number; the residual's product then vanishes and
  the two programs' results are the same function of the arguments, entry by entry (`algebraic`). The idealized
  kernel is the kernel's own text read at exact arithmetic, no operation rewritten (`preserves` is trivial). Each of
  the three programs runs to the end and leaves its arguments unchanged (the frames): the reference by its straight-line
  run; the idealized kernel by running the grid with every buffer's contents named; the word-level kernel by running
  the grid with the result buffer's contents left unnamed, since at the word level the unknown words past the end
  of the last weight tile may influence them.
-/
import proofs.«107610_j5875515261093_2_alg».proof.Defs
import proofs.«107610_j5875515261093_2_alg».proof.Proof.Gen.Kernel
import proofs.«107610_j5875515261093_2_alg».proof.Proof.Gen.KernelIdeal
import proofs.«107610_j5875515261093_2_alg».proof.Proof.Gen.ReferenceIdeal
import proofs.«107610_j5875515261093_2_alg».proof.Proof.Gen.ReferenceIdeal.Run
import proofs.«107610_j5875515261093_2_alg».proof.Proof.Gen.ReferenceIdeal.Read
import proofs.«107610_j5875515261093_2_alg».proof.Proof.Gen.Pre_finite_inputs
import proofs.«107610_j5875515261093_2_alg».proof.Proof.KHost
import proofs.«107610_j5875515261093_2_alg».proof.Proof.BRun
import proofs.«107610_j5875515261093_2_alg».proof.Proof.RefValue
import proofs.«107610_j5875515261093_2_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs to the end and leaves its arguments unchanged. -/
theorem frame_kernel : Cert.frame_Kernel := fun m ρ _ => Cert.Kernel.Hand.frame (F := Bits) m ρ

/-- So does the idealized kernel. -/
theorem frame_kernelIdeal : Cert.frame_KernelIdeal := fun m ρ _ => Cert.KernelIdeal.Hand.frame m ρ

/-- So does the reference: its straight-line run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments, with every activation finite, both idealized programs end with the result
    array at `(∑ₖ x[i,k]·w[n,k])·s[n] + b[n]` of the arguments. -/
theorem algebraic : Cert.algebraic_KernelIdeal_ReferenceIdeal := by
  intro m ρ m' ρ' hpre hagree
  have hx : ∀ (c : Dev Cert.KernelIdeal.nD) i, ∃ r : ℝ, Cert.KernelIdeal.Hand.argX m c i = (r : EReal) :=
    fun c => Cert.Finite.x_real _ _ _ _ (hpre c)
  refine ⟨_, Cert.KernelIdeal.Hand.run_value m ρ hx, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefValue.ref_eq, (hagree c).1, (hagree c).2.1,
    (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
